-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x2048 : Shape := ⟨2, ![1024, 2048]⟩
abbrev S2048x2048 : Shape := ⟨2, ![2048, 2048]⟩
abbrev S3072x2048 : Shape := ⟨2, ![3072, 2048]⟩
abbrev S512x2048 : Shape := ⟨2, ![512, 2048]⟩
abbrev S1536x2048 : Shape := ⟨2, ![1536, 2048]⟩
abbrev S2560x2048 : Shape := ⟨2, ![2560, 2048]⟩
abbrev S768x2048 : Shape := ⟨2, ![768, 2048]⟩
abbrev S2048x8192 : Shape := ⟨2, ![2048, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S1536x2048 : S_.BroadcastsInDim S1536x2048 (![] : Fin 0 → Fin S1536x2048.rank)
  reducesTo_S1536x2048_S_d0_1 : S1536x2048.ReducesTo [0, 1] S_
  bcast_S_S2560x2048 : S_.BroadcastsInDim S2560x2048 (![] : Fin 0 → Fin S2560x2048.rank)
  reducesTo_S2560x2048_S_d0_1 : S2560x2048.ReducesTo [0, 1] S_
  bcast_S_S768x2048 : S_.BroadcastsInDim S768x2048 (![] : Fin 0 → Fin S768x2048.rank)
  reducesTo_S768x2048_S_d0_1 : S768x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part4 {F : FTy → Type} [FloatOps F] (main_arg14 : FVec F S2048x8192 .f32) (main_arg15 : FVec F S2048x8192 .f32) (main_v63 : IVec S_ 1) (main_v67 : IVec S_ 1) : IVec S_ 1 :=
  let main_v68 : IVec S_ 1 := andi main_v63 main_v67
  let main_v69 : FVec F S2048x8192 .f32 := Host.absf main_arg14
  let main_cst_26 : FVec F S_ .f32 := constant S_ .f32 0x7F800000#32
  let main_v70 : FVec F S2048x8192 .f32 := broadcastInDim S2048x8192 ![] bcast_S_S2048x8192 main_cst_26
  let main_v71 : IVec S2048x8192 1 := cmpf .olt main_v69 main_v70
  let main_c_27 : IVec S_ 1 := constantI S_ 1 1#1
  let main_v72 : IVec S_ 1 := (fun x v => Host.reduce IntOp.andi x v reducesTo_S2048x8192_S_d0_1 h_S_) main_v71 main_c_27
  let main_v73 : IVec S_ 1 := andi main_v68 main_v72
  let main_v74 : FVec F S2048x8192 .f32 := Host.absf main_arg15
  let main_cst_28 : FVec F S_ .f32 := constant S_ .f32 0x7F800000#32
  let main_v75 : FVec F S2048x8192 .f32 := broadcastInDim S2048x8192 ![] bcast_S_S2048x8192 main_cst_28
  let main_v76 : IVec S2048x8192 1 := cmpf .olt main_v74 main_v75
  let main_c_29 : IVec S_ 1 := constantI S_ 1 1#1
  let main_v77 : IVec S_ 1 := (fun x v => Host.reduce IntOp.andi x v reducesTo_S2048x8192_S_d0_1 h_S_) main_v76 main_c_29
  let main_v78 : IVec S_ 1 := andi main_v73 main_v77
  main_v78

def fn_part3 {F : FTy → Type} [FloatOps F] (main_arg11 : FVec F S2048x8192 .f32) (main_arg12 : FVec F S2048x8192 .f32) (main_arg13 : FVec F S2048x8192 .f32) (main_arg14 : FVec F S2048x8192 .f32) (main_arg15 : FVec F S2048x8192 .f32) (main_v48 : IVec S_ 1) (main_v49 : FVec F S2048x8192 .f32) (main_v50 : FVec F S2048x8192 .f32) : IVec S_ 1 :=
  let main_v51 : IVec S2048x8192 1 := cmpf .olt main_v49 main_v50
  let main_c_19 : IVec S_ 1 := constantI S_ 1 1#1
  let main_v52 : IVec S_ 1 := (fun x v => Host.reduce IntOp.andi x v reducesTo_S2048x8192_S_d0_1 h_S_) main_v51 main_c_19
  let main_v53 : IVec S_ 1 := andi main_v48 main_v52
  let main_v54 : FVec F S2048x8192 .f32 := Host.absf main_arg11
  let main_cst_20 : FVec F S_ .f32 := constant S_ .f32 0x7F800000#32
  let main_v55 : FVec F S2048x8192 .f32 := broadcastInDim S2048x8192 ![] bcast_S_S2048x8192 main_cst_20
  let main_v56 : IVec S2048x8192 1 := cmpf .olt main_v54 main_v55
  let main_c_21 : IVec S_ 1 := constantI S_ 1 1#1
  let main_v57 : IVec S_ 1 := (fun x v => Host.reduce IntOp.andi x v reducesTo_S2048x8192_S_d0_1 h_S_) main_v56 main_c_21
  let main_v58 : IVec S_ 1 := andi main_v53 main_v57
  let main_v59 : FVec F S2048x8192 .f32 := Host.absf main_arg12
  let main_cst_22 : FVec F S_ .f32 := constant S_ .f32 0x7F800000#32
  let main_v60 : FVec F S2048x8192 .f32 := broadcastInDim S2048x8192 ![] bcast_S_S2048x8192 main_cst_22
  let main_v61 : IVec S2048x8192 1 := cmpf .olt main_v59 main_v60
  let main_c_23 : IVec S_ 1 := constantI S_ 1 1#1
  let main_v62 : IVec S_ 1 := (fun x v => Host.reduce IntOp.andi x v reducesTo_S2048x8192_S_d0_1 h_S_) main_v61 main_c_23
  let main_v63 : IVec S_ 1 := andi main_v58 main_v62
  let main_v64 : FVec F S2048x8192 .f32 := Host.absf main_arg13
  let main_cst_24 : FVec F S_ .f32 := constant S_ .f32 0x7F800000#32
  let main_v65 : FVec F S2048x8192 .f32 := broadcastInDim S2048x8192 ![] bcast_S_S2048x8192 main_cst_24
  let main_v66 : IVec S2048x8192 1 := cmpf .olt main_v64 main_v65
  let main_c_25 : IVec S_ 1 := constantI S_ 1 1#1
  let main_v67 : IVec S_ 1 := (fun x v => Host.reduce IntOp.andi x v reducesTo_S2048x8192_S_d0_1 h_S_) main_v66 main_c_25
  fn_part4 (F := F) main_arg14 main_arg15 main_v63 main_v67

def fn_part2 {F : FTy → Type} [FloatOps F] (main_arg7 : FVec F S768x2048 .f32) (main_arg8 : FVec F S2048x8192 .f32) (main_arg9 : FVec F S2048x8192 .f32) (main_arg10 : FVec F S2048x8192 .f32) (main_arg11 : FVec F S2048x8192 .f32) (main_arg12 : FVec F S2048x8192 .f32) (main_arg13 : FVec F S2048x8192 .f32) (main_arg14 : FVec F S2048x8192 .f32) (main_arg15 : FVec F S2048x8192 .f32) (main_v33 : IVec S_ 1) : IVec S_ 1 :=
  let main_v34 : FVec F S768x2048 .f32 := Host.absf main_arg7
  let main_cst_12 : FVec F S_ .f32 := constant S_ .f32 0x7F800000#32
  let main_v35 : FVec F S768x2048 .f32 := broadcastInDim S768x2048 ![] bcast_S_S768x2048 main_cst_12
  let main_v36 : IVec S768x2048 1 := cmpf .olt main_v34 main_v35
  let main_c_13 : IVec S_ 1 := constantI S_ 1 1#1
  let main_v37 : IVec S_ 1 := (fun x v => Host.reduce IntOp.andi x v reducesTo_S768x2048_S_d0_1 h_S_) main_v36 main_c_13
  let main_v38 : IVec S_ 1 := andi main_v33 main_v37
  let main_v39 : FVec F S2048x8192 .f32 := Host.absf main_arg8
  let main_cst_14 : FVec F S_ .f32 := constant S_ .f32 0x7F800000#32
  let main_v40 : FVec F S2048x8192 .f32 := broadcastInDim S2048x8192 ![] bcast_S_S2048x8192 main_cst_14
  let main_v41 : IVec S2048x8192 1 := cmpf .olt main_v39 main_v40
  let main_c_15 : IVec S_ 1 := constantI S_ 1 1#1
  let main_v42 : IVec S_ 1 := (fun x v => Host.reduce IntOp.andi x v reducesTo_S2048x8192_S_d0_1 h_S_) main_v41 main_c_15
  let main_v43 : IVec S_ 1 := andi main_v38 main_v42
  let main_v44 : FVec F S2048x8192 .f32 := Host.absf main_arg9
  let main_cst_16 : FVec F S_ .f32 := constant S_ .f32 0x7F800000#32
  let main_v45 : FVec F S2048x8192 .f32 := broadcastInDim S2048x8192 ![] bcast_S_S2048x8192 main_cst_16
  let main_v46 : IVec S2048x8192 1 := cmpf .olt main_v44 main_v45
  let main_c_17 : IVec S_ 1 := constantI S_ 1 1#1
  let main_v47 : IVec S_ 1 := (fun x v => Host.reduce IntOp.andi x v reducesTo_S2048x8192_S_d0_1 h_S_) main_v46 main_c_17
  let main_v48 : IVec S_ 1 := andi main_v43 main_v47
  let main_v49 : FVec F S2048x8192 .f32 := Host.absf main_arg10
  let main_cst_18 : FVec F S_ .f32 := constant S_ .f32 0x7F800000#32
  let main_v50 : FVec F S2048x8192 .f32 := broadcastInDim S2048x8192 ![] bcast_S_S2048x8192 main_cst_18
  fn_part3 (F := F) main_arg11 main_arg12 main_arg13 main_arg14 main_arg15 main_v48 main_v49 main_v50

def fn_part1 {F : FTy → Type} [FloatOps F] (main_arg4 : FVec F S512x2048 .f32) (main_arg5 : FVec F S1536x2048 .f32) (main_arg6 : FVec F S2560x2048 .f32) (main_arg7 : FVec F S768x2048 .f32) (main_arg8 : FVec F S2048x8192 .f32) (main_arg9 : FVec F S2048x8192 .f32) (main_arg10 : FVec F S2048x8192 .f32) (main_arg11 : FVec F S2048x8192 .f32) (main_arg12 : FVec F S2048x8192 .f32) (main_arg13 : FVec F S2048x8192 .f32) (main_arg14 : FVec F S2048x8192 .f32) (main_arg15 : FVec F S2048x8192 .f32) (main_v13 : IVec S_ 1) (main_v16 : IVec S3072x2048 1) : IVec S_ 1 :=
  let main_c_5 : IVec S_ 1 := constantI S_ 1 1#1
  let main_v17 : IVec S_ 1 := (fun x v => Host.reduce IntOp.andi x v reducesTo_S3072x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S1536x2048 .f32 := Host.absf main_arg5
  let main_cst_8 : FVec F S_ .f32 := constant S_ .f32 0x7F800000#32
  let main_v25 : FVec F S1536x2048 .f32 := broadcastInDim S1536x2048 ![] bcast_S_S1536x2048 main_cst_8
  let main_v26 : IVec S1536x2048 1 := cmpf .olt main_v24 main_v25
  let main_c_9 : IVec S_ 1 := constantI S_ 1 1#1
  let main_v27 : IVec S_ 1 := (fun x v => Host.reduce IntOp.andi x v reducesTo_S1536x2048_S_d0_1 h_S_) main_v26 main_c_9
  let main_v28 : IVec S_ 1 := andi main_v23 main_v27
  let main_v29 : FVec F S2560x2048 .f32 := Host.absf main_arg6
  let main_cst_10 : FVec F S_ .f32 := constant S_ .f32 0x7F800000#32
  let main_v30 : FVec F S2560x2048 .f32 := broadcastInDim S2560x2048 ![] bcast_S_S2560x2048 main_cst_10
  let main_v31 : IVec S2560x2048 1 := cmpf .olt main_v29 main_v30
  let main_c_11 : IVec S_ 1 := constantI S_ 1 1#1
  let main_v32 : IVec S_ 1 := (fun x v => Host.reduce IntOp.andi x v reducesTo_S2560x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x2048 .f32) (main_arg1 : FVec F S1024x2048 .f32) (main_arg2 : FVec F S2048x2048 .f32) (main_arg3 : FVec F S3072x2048 .f32) (main_arg4 : FVec F S512x2048 .f32) (main_arg5 : FVec F S1536x2048 .f32) (main_arg6 : FVec F S2560x2048 .f32) (main_arg7 : FVec F S768x2048 .f32) (main_arg8 : FVec F S2048x8192 .f32) (main_arg9 : FVec F S2048x8192 .f32) (main_arg10 : FVec F S2048x8192 .f32) (main_arg11 : FVec F S2048x8192 .f32) (main_arg12 : FVec F S2048x8192 .f32) (main_arg13 : FVec F S2048x8192 .f32) (main_arg14 : FVec F S2048x8192 .f32) (main_arg15 : FVec F S2048x8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S3072x2048 .f32 := Host.absf main_arg3
  let main_cst_4 : FVec F S_ .f32 := constant S_ .f32 0x7F800000#32
  let main_v15 : FVec F S3072x2048 .f32 := broadcastInDim S3072x2048 ![] bcast_S_S3072x2048 main_cst_4
  let main_v16 : IVec S3072x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x2048 : Shape := ⟨2, ![4096, 2048]⟩
abbrev S1024x2048 : Shape := ⟨2, ![1024, 2048]⟩
abbrev S2048x2048 : Shape := ⟨2, ![2048, 2048]⟩
abbrev S3072x2048 : Shape := ⟨2, ![3072, 2048]⟩
abbrev S512x2048 : Shape := ⟨2, ![512, 2048]⟩
abbrev S1536x2048 : Shape := ⟨2, ![1536, 2048]⟩
abbrev S2560x2048 : Shape := ⟨2, ![2560, 2048]⟩
abbrev S768x2048 : Shape := ⟨2, ![768, 2048]⟩
abbrev S2048x8192 : Shape := ⟨2, ![2048, 8192]⟩
abbrev S4096x8192 : Shape := ⟨2, ![4096, 8192]⟩
abbrev S1024x8192 : Shape := ⟨2, ![1024, 8192]⟩
abbrev S3072x8192 : Shape := ⟨2, ![3072, 8192]⟩
abbrev S512x8192 : Shape := ⟨2, ![512, 8192]⟩
abbrev S1536x8192 : Shape := ⟨2, ![1536, 8192]⟩
abbrev S2560x8192 : Shape := ⟨2, ![2560, 8192]⟩
abbrev S768x8192 : Shape := ⟨2, ![768, 8192]⟩
abbrev S256x2048 : Shape := ⟨2, ![256, 2048]⟩

abbrev nBuf : Space → Nat
  | .hbm => 40
  | .vmem => 47
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S2048x2048, .f32⟩
  | .hbm, ⟨3, _⟩ => ⟨S3072x2048, .f32⟩
  | .hbm, ⟨4, _⟩ => ⟨S512x2048, .f32⟩
  | .hbm, ⟨5, _⟩ => ⟨S1536x2048, .f32⟩
  | .hbm, ⟨6, _⟩ => ⟨S2560x2048, .f32⟩
  | .hbm, ⟨7, _⟩ => ⟨S768x2048, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S4096x2048, .bf16⟩
  | .hbm, ⟨17, _⟩ => ⟨S2048x8192, .bf16⟩
  | .hbm, ⟨18, _⟩ => ⟨S4096x8192, .f32⟩
  | .hbm, ⟨19, _⟩ => ⟨S1024x2048, .bf16⟩
  | .hbm, ⟨20, _⟩ => ⟨S2048x8192, .bf16⟩
  | .hbm, ⟨21, _⟩ => ⟨S1024x8192, .f32⟩
  | .hbm, ⟨22, _⟩ => ⟨S2048x2048, .bf16⟩
  | .hbm, ⟨23, _⟩ => ⟨S2048x8192, .bf16⟩
  | .hbm, ⟨24, _⟩ => ⟨S2048x8192, .f32⟩
  | .hbm, ⟨25, _⟩ => ⟨S3072x2048, .bf16⟩
  | .hbm, ⟨26, _⟩ => ⟨S2048x8192, .bf16⟩
  | .hbm, ⟨27, _⟩ => ⟨S3072x8192, .f32⟩
  | .hbm, ⟨28, _⟩ => ⟨S512x2048, .bf16⟩
  | .hbm, ⟨29, _⟩ => ⟨S2048x8192, .bf16⟩
  | .hbm, ⟨30, _⟩ => ⟨S512x8192, .f32⟩
  | .hbm, ⟨31, _⟩ => ⟨S1536x2048, .bf16⟩
  | .hbm, ⟨32, _⟩ => ⟨S2048x8192, .bf16⟩
  | .hbm, ⟨33, _⟩ => ⟨S1536x8192, .f32⟩
  | .hbm, ⟨34, _⟩ => ⟨S2560x2048, .bf16⟩
  | .hbm, ⟨35, _⟩ => ⟨S2048x8192, .bf16⟩
  | .hbm, ⟨36, _⟩ => ⟨S2560x8192, .f32⟩
  | .hbm, ⟨37, _⟩ => ⟨S768x2048, .bf16⟩
  | .hbm, ⟨38, _⟩ => ⟨S2048x8192, .bf16⟩
  | .hbm, ⟨39, _⟩ => ⟨S768x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S2048x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | .local _ .vmem, ⟨20, _⟩ => ⟨S2048x2048, .bf16⟩
  | .local _ .vmem, ⟨21, _⟩ => ⟨S2048x2048, .bf16⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | .local _ .vmem, ⟨25, _⟩ => ⟨S2048x2048, .bf16⟩
  | .local _ .vmem, ⟨26, _⟩ => ⟨S2048x2048, .bf16⟩
  | .local _ .vmem, ⟨27, _⟩ => ⟨S512x2048, .f32⟩
  | .local _ .vmem, ⟨28, _⟩ => ⟨S512x2048, .f32⟩
  | .local _ .vmem, ⟨29, _⟩ => ⟨S512x2048, .bf16⟩
  | .local _ .vmem, ⟨30, _⟩ => ⟨S512x2048, .bf16⟩
  | .local _ .vmem, ⟨31, _⟩ => ⟨S2048x2048, .bf16⟩
  | .local _ .vmem, ⟨32, _⟩ => ⟨S2048x2048, .bf16⟩
  | .local _ .vmem, ⟨33, _⟩ => ⟨S512x2048, .f32⟩
  | .local _ .vmem, ⟨34, _⟩ => ⟨S512x2048, .f32⟩
  | .local _ .vmem, ⟨35, _⟩ => ⟨S512x2048, .bf16⟩
  | .local _ .vmem, ⟨36, _⟩ => ⟨S512x2048, .bf16⟩
  | .local _ .vmem, ⟨37, _⟩ => ⟨S2048x2048, .bf16⟩
  | .local _ .vmem, ⟨38, _⟩ => ⟨S2048x2048, .bf16⟩
  | .local _ .vmem, ⟨39, _⟩ => ⟨S512x2048, .f32⟩
  | .local _ .vmem, ⟨40, _⟩ => ⟨S512x2048, .f32⟩
  | .local _ .vmem, ⟨41, _⟩ => ⟨S256x2048, .bf16⟩
  | .local _ .vmem, ⟨42, _⟩ => ⟨S256x2048, .bf16⟩
  | .local _ .vmem, ⟨43, _⟩ => ⟨S2048x2048, .bf16⟩
  | .local _ .vmem, ⟨44, _⟩ => ⟨S2048x2048, .bf16⟩
  | .local _ .vmem, ⟨45, _⟩ => ⟨S256x2048, .f32⟩
  | .local _ .vmem, ⟨46, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_v0_0 : Ref sig .tc := ⟨.hbm, 18, rfl⟩
abbrev main_call0_v3 : Ref sig .tc := ⟨.hbm, 19, rfl⟩
abbrev main_call0_v4 : Ref sig .tc := ⟨.hbm, 20, rfl⟩
abbrev main_v0_1 : Ref sig .tc := ⟨.hbm, 21, rfl⟩
abbrev main_call0_v6 : Ref sig .tc := ⟨.hbm, 22, rfl⟩
abbrev main_call0_v7 : Ref sig .tc := ⟨.hbm, 23, rfl⟩
abbrev main_v0_2 : Ref sig .tc := ⟨.hbm, 24, rfl⟩
abbrev main_call0_v9 : Ref sig .tc := ⟨.hbm, 25, rfl⟩
abbrev main_call0_v10 : Ref sig .tc := ⟨.hbm, 26, rfl⟩
abbrev main_v0_3 : Ref sig .tc := ⟨.hbm, 27, rfl⟩
abbrev main_call0_v12 : Ref sig .tc := ⟨.hbm, 28, rfl⟩
abbrev main_call0_v13 : Ref sig .tc := ⟨.hbm, 29, rfl⟩
abbrev main_v0_4 : Ref sig .tc := ⟨.hbm, 30, rfl⟩
abbrev main_call0_v15 : Ref sig .tc := ⟨.hbm, 31, rfl⟩
abbrev main_call0_v16 : Ref sig .tc := ⟨.hbm, 32, rfl⟩
abbrev main_v0_5 : Ref sig .tc := ⟨.hbm, 33, rfl⟩
abbrev main_call0_v18 : Ref sig .tc := ⟨.hbm, 34, rfl⟩
abbrev main_call0_v19 : Ref sig .tc := ⟨.hbm, 35, rfl⟩
abbrev main_v0_6 : Ref sig .tc := ⟨.hbm, 36, rfl⟩
abbrev main_call0_v21 : Ref sig .tc := ⟨.hbm, 37, rfl⟩
abbrev main_call0_v22 : Ref sig .tc := ⟨.hbm, 38, rfl⟩
abbrev main_v0_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 1 → Memref sig .tc .vmem S512x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 2 → Memref sig .tc .vmem S2048x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 3], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 5], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S2048x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S512x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 3], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S256x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S2048x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S256x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S512x2048_S2048x2048_S512x2048_1_0_0_1_n_n_wf : DotDims.WF S512x2048 S2048x2048 S512x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x8192.size a
  hwx0_2 : ∀ i : grid0.Coords, EltTy.bits .f32 = 32 ∨ (Rect.block (s := S4096x8192) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S1024x2048.size a
  hwx1_0 : ∀ i : grid1.Coords, EltTy.bits .bf16 = 32 ∨ (Rect.block (s := S1024x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x8192.size a
  hwx1_1 : ∀ i : grid1.Coords, EltTy.bits .bf16 = 32 ∨ (Rect.block (s := S2048x8192) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S1024x8192.size a
  hwx1_2 : ∀ i : grid1.Coords, EltTy.bits .f32 = 32 ∨ (Rect.block (s := S1024x8192) S512x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S2048x2048.size a
  hwx2_0 : ∀ i : grid2.Coords, EltTy.bits .bf16 = 32 ∨ (Rect.block (s := S2048x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x8192.size a
  hwx2_1 : ∀ i : grid2.Coords, EltTy.bits .bf16 = 32 ∨ (Rect.block (s := S2048x8192) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S2048x8192.size a
  hwx2_2 : ∀ i : grid2.Coords, EltTy.bits .f32 = 32 ∨ (Rect.block (s := S2048x8192) S512x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S3072x2048.size a
  hwx3_0 : ∀ i : grid3.Coords, EltTy.bits .bf16 = 32 ∨ (Rect.block (s := S3072x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x8192.size a
  hwx3_1 : ∀ i : grid3.Coords, EltTy.bits .bf16 = 32 ∨ (Rect.block (s := S2048x8192) S2048x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S3072x8192.size a
  hwx3_2 : ∀ i : grid3.Coords, EltTy.bits .f32 = 32 ∨ (Rect.block (s := S3072x8192) S512x2048.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S512x2048.size a
  hwx4_0 : ∀ i : grid4.Coords, EltTy.bits .bf16 = 32 ∨ (Rect.block (s := S512x2048) S512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x8192.size a
  hwx4_1 : ∀ i : grid4.Coords, EltTy.bits .bf16 = 32 ∨ (Rect.block (s := S2048x8192) S2048x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x2048.size a ≤ S512x8192.size a
  hwx4_2 : ∀ i : grid4.Coords, EltTy.bits .f32 = 32 ∨ (Rect.block (s := S512x8192) S512x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S1536x2048.size a
  hwx5_0 : ∀ i : grid5.Coords, EltTy.bits .bf16 = 32 ∨ (Rect.block (s := S1536x2048) S512x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x2048.size a ≤ S2048x8192.size a
  hwx5_1 : ∀ i : grid5.Coords, EltTy.bits .bf16 = 32 ∨ (Rect.block (s := S2048x8192) S2048x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x2048.size a ≤ S1536x8192.size a
  hwx5_2 : ∀ i : grid5.Coords, EltTy.bits .f32 = 32 ∨ (Rect.block (s := S1536x8192) S512x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x2048.size a ≤ S2560x2048.size a
  hwx6_0 : ∀ i : grid6.Coords, EltTy.bits .bf16 = 32 ∨ (Rect.block (s := S2560x2048) S512x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x2048.size a ≤ S2048x8192.size a
  hwx6_1 : ∀ i : grid6.Coords, EltTy.bits .bf16 = 32 ∨ (Rect.block (s := S2048x8192) S2048x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x2048.size a ≤ S2560x8192.size a
  hwx6_2 : ∀ i : grid6.Coords, EltTy.bits .f32 = 32 ∨ (Rect.block (s := S2560x8192) S512x2048.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x2048.size a ≤ S768x2048.size a
  hwx7_0 : ∀ i : grid7.Coords, EltTy.bits .bf16 = 32 ∨ (Rect.block (s := S768x2048) S256x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x2048.size a ≤ S2048x8192.size a
  hwx7_1 : ∀ i : grid7.Coords, EltTy.bits .bf16 = 32 ∨ (Rect.block (s := S2048x8192) S2048x2048.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x2048.size a ≤ S768x8192.size a
  hwx7_2 : ∀ i : grid7.Coords, EltTy.bits .f32 = 32 ∨ (Rect.block (s := S768x8192) S256x2048.size (cc7_transform_2 i) (hinb7_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_call0_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v6) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v7) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_2) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v9) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v10) S2048x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0_3) S512x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v12) S512x2048.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_call0_v13) S2048x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0_4) S512x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_call0_v15) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v16) S2048x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v0_5) S512x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_call0_v18) S512x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v19) S2048x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v0_6) S512x2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_call0_v21) S256x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v22) S2048x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v0_7) S256x2048.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S4096x2048 : Shape := ⟨2, ![4096, 2048]⟩
abbrev S1024x2048 : Shape := ⟨2, ![1024, 2048]⟩
abbrev S2048x2048 : Shape := ⟨2, ![2048, 2048]⟩
abbrev S3072x2048 : Shape := ⟨2, ![3072, 2048]⟩
abbrev S512x2048 : Shape := ⟨2, ![512, 2048]⟩
abbrev S1536x2048 : Shape := ⟨2, ![1536, 2048]⟩
abbrev S2560x2048 : Shape := ⟨2, ![2560, 2048]⟩
abbrev S768x2048 : Shape := ⟨2, ![768, 2048]⟩
abbrev S2048x8192 : Shape := ⟨2, ![2048, 8192]⟩
abbrev S4096x8192 : Shape := ⟨2, ![4096, 8192]⟩
abbrev S1024x8192 : Shape := ⟨2, ![1024, 8192]⟩
abbrev S3072x8192 : Shape := ⟨2, ![3072, 8192]⟩
abbrev S512x8192 : Shape := ⟨2, ![512, 8192]⟩
abbrev S1536x8192 : Shape := ⟨2, ![1536, 8192]⟩
abbrev S2560x8192 : Shape := ⟨2, ![2560, 8192]⟩
abbrev S768x8192 : Shape := ⟨2, ![768, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S2048x2048, .f32⟩
  | .hbm, ⟨3, _⟩ => ⟨S3072x2048, .f32⟩
  | .hbm, ⟨4, _⟩ => ⟨S512x2048, .f32⟩
  | .hbm, ⟨5, _⟩ => ⟨S1536x2048, .f32⟩
  | .hbm, ⟨6, _⟩ => ⟨S2560x2048, .f32⟩
  | .hbm, ⟨7, _⟩ => ⟨S768x2048, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S2048x8192, .f32⟩
  | .hbm, ⟨16, _⟩ => ⟨S4096x8192, .f32⟩
  | .hbm, ⟨17, _⟩ => ⟨S1024x8192, .f32⟩
  | .hbm, ⟨18, _⟩ => ⟨S2048x8192, .f32⟩
  | .hbm, ⟨19, _⟩ => ⟨S3072x8192, .f32⟩
  | .hbm, ⟨20, _⟩ => ⟨S512x8192, .f32⟩
  | .hbm, ⟨21, _⟩ => ⟨S1536x8192, .f32⟩
  | .hbm, ⟨22, _⟩ => ⟨S2560x8192, .f32⟩
  | .hbm, ⟨23, _⟩ => ⟨S768x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]

class Facts₀ : Prop where
  dot_S4096x2048_S2048x8192_S4096x8192_1_0_0_1_n_n_wf : DotDims.WF S4096x2048 S2048x8192 S4096x8192 [1] [0] [0] [1] [] []
  dot_S1024x2048_S2048x8192_S1024x8192_1_0_0_1_n_n_wf : DotDims.WF S1024x2048 S2048x8192 S1024x8192 [1] [0] [0] [1] [] []
  dot_S2048x2048_S2048x8192_S2048x8192_1_0_0_1_n_n_wf : DotDims.WF S2048x2048 S2048x8192 S2048x8192 [1] [0] [0] [1] [] []
  dot_S3072x2048_S2048x8192_S3072x8192_1_0_0_1_n_n_wf : DotDims.WF S3072x2048 S2048x8192 S3072x8192 [1] [0] [0] [1] [] []
  dot_S512x2048_S2048x8192_S512x8192_1_0_0_1_n_n_wf : DotDims.WF S512x2048 S2048x8192 S512x8192 [1] [0] [0] [1] [] []
  dot_S1536x2048_S2048x8192_S1536x8192_1_0_0_1_n_n_wf : DotDims.WF S1536x2048 S2048x8192 S1536x8192 [1] [0] [0] [1] [] []
  dot_S2560x2048_S2048x8192_S2560x8192_1_0_0_1_n_n_wf : DotDims.WF S2560x2048 S2048x8192 S2560x8192 [1] [0] [0] [1] [] []
  dot_S768x2048_S2048x8192_S768x8192_1_0_0_1_n_n_wf : DotDims.WF S768x2048 S2048x8192 S768x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S3072x2048_S2048x8192_S3072x8192_1_0_0_1_n_n : DotDims S3072x2048 S2048x8192 S3072x8192 where
  lhsContracting := [1]
  rhsContracting := [0]
  lhsNonContracting := [0]
  rhsNonContracting := [1]
  lhsBatch := []
  rhsBatch := []
  wf := dot_S3072x2048_S2048x8192_S3072x8192_1_0_0_1_n_n_wf
def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf
def dot_S1536x2048_S2048x8192_S1536x8192_1_0_0_1_n_n : DotDims S1536x2048 S2048x8192 S1536x8192 where
  lhsContracting := [1]
  rhsContracting := [0]
  lhsNonContracting := [0]
  rhsNonContracting := [1]
  lhsBatch := []
  rhsBatch := []
  wf := dot_S1536x2048_S2048x8192_S1536x8192_1_0_0_1_n_n_wf
def dot_S2560x2048_S2048x8192_S2560x8192_1_0_0_1_n_n : DotDims S2560x2048 S2048x8192 S2560x8192 where
  lhsContracting := [1]
  rhsContracting := [0]
  lhsNonContracting := [0]
  rhsNonContracting := [1]
  lhsBatch := []
  rhsBatch := []
  wf := dot_S2560x2048_S2048x8192_S2560x8192_1_0_0_1_n_n_wf
def dot_S768x2048_S2048x8192_S768x8192_1_0_0_1_n_n : DotDims S768x2048 S2048x8192 S768x8192 where
  lhsContracting := [1]
  rhsContracting := [0]
  lhsNonContracting := [0]
  rhsNonContracting := [1]
  lhsBatch := []
  rhsBatch := []
  wf := dot_S768x2048_S2048x8192_S768x8192_1_0_0_1_n_n_wf

class Facts : Prop extends Facts₀ where

variable [Facts]
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibGemm.lean ====
/-
  The product of two matrices over the extended reals, and a tile of it.

  For `A` of `M × K` and `B` of `K × N` entries, `prod A B` has at `(r, c)` the entry `∑ k, A (r, k) * B (k, c)`.
  The sum is a finite sum in a commutative monoid, so no finiteness of the entries is asked: the extended reals add and
  multiply everywhere, and nothing here distributes, cancels, or reorders a product across a sum.

  Two readings meet at this one function.  The host's product with the standard dimension numbers (contract the left
  operand's columns with the right operand's rows) IS `prod`.  And a TILE of the product — `TM` rows by `TN`
  columns, computed from the `TM × K` rows of `A` and the `K × TN` columns of `B` it depends on, accumulated into
  a zero tile — is `prod A B` read at the tile's place: entry `(r, q)` of the tile only needs row `r` of the row
  block to be row `I 0` of `A` and column `q` of the column block to be column `I 1` of `B`.  A change of float
  format is the identity on extended reals, so the operands' formats do not matter.
-/
import proofs.«141534_j38792144618090_2_alg».proof.Proof.LibPlain
import Idealize.ShloMosaic.Lib.Pipeline.Value
import Idealize.ShloMosaic.Lib.ValueIdx

noncomputable section

namespace Cert.Gemm

open Idealize.ShloMosaic Idealize.ShloMosaic.ValueIdx

/-- The matrix product: at `(r, c)`, the sum over `k` of `A (r, k) * B (k, c)`. -/
def prod {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The product at an index. -/
theorem prod_apply {M K N : ℕ} (A : (⟨2, ![M, K]⟩ : Shape).Idx → EReal) (B : (⟨2, ![K, N]⟩ : Shape).Idx → EReal)
    (i : (⟨2, ![M, N]⟩ : Shape).Idx) : prod A B i = ∑ k : Fin K, A (ix2 (i 0) k) * B (ix2 k (i 1)) := rfl

/-- The host's product with the standard dimension numbers is `prod`, whatever the operands' float formats. -/
theorem host_eq_prod {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) :
    Host.dotGeneral d prec A B = prod A B := by
  funext i
  refine (congrArg (Host.dotGeneral d prec A B) (eq_ix2 i)).trans ?_
  exact Cert.LibPlain.dotGeneral_apply d hd prec A B (i 0) (i 1)

/-- A tile of the product.  `X0` is a block of `TM` rows and `X1` a block of `TN` columns; the tile's entry `y`
    is the product's entry `I` as soon as row `y 0` of `X0` is row `I 0` of `A` and column `y 1` of `X1` is
    column `I 1` of `B`.  (The two casts are casts of a shape to itself: the identity.) -/
theorem tile_apply {M K N TM TN : ℕ} {φ₁ φ₂ : FTy}
    (A : (⟨2, ![M, K]⟩ : Shape).Idx → EReal) (B : (⟨2, ![K, N]⟩ : Shape).Idx → EReal)
    (X0 : FVec Ideal ⟨2, ![TM, K]⟩ φ₁) (X1 : FVec Ideal ⟨2, ![K, TN]⟩ φ₂)
    (d : DotDims ⟨2, ![TM, K]⟩ ⟨2, ![K, TN]⟩ ⟨2, ![TM, TN]⟩) (hd : d = DotDims.plain TM K TN)
    (c0 : (⟨2, ![TM, K]⟩ : Shape).ShapeCasts ⟨2, ![TM, K]⟩) (c1 : (⟨2, ![K, TN]⟩ : Shape).ShapeCasts ⟨2, ![K, TN]⟩)
    (y : (⟨2, ![TM, TN]⟩ : Shape).Idx) (I : (⟨2, ![M, N]⟩ : Shape).Idx)
    (h0 : ∀ k : Fin K, X0 (ix2 (y 0) k) = A (ix2 (I 0) k))
    (h1 : ∀ k : Fin K, X1 (ix2 k (y 1)) = B (ix2 k (I 1))) :
    matmul d none (shapeCast ⟨2, ![TM, K]⟩ X0 c0) (shapeCast ⟨2, ![K, TN]⟩ X1 c1)
        (constant (F := Ideal) ⟨2, ![TM, TN]⟩ .f32 0x00000000#32) y
      = prod A B I := by
  rw [shapeCast_self, shapeCast_self]
  refine (congrArg (matmul d none X0 X1 (constant (F := Ideal) ⟨2, ![TM, TN]⟩ .f32 0x00000000#32)) (eq_ix2 y)).trans ?_
  refine (Cert.LibPlain.matmul_zero_apply d hd none X0 X1 (y 0) (y 1)).trans ?_
  rw [prod_apply]
  exact Finset.sum_congr rfl fun k _ => by rw [h0 k, h1 k]

end Cert.Gemm

end
-- ==== Proof.KernelRun.lean ====
/-
  The idealized kernel's run, with the final memory read whole.

  The program is sixteen segments in a row: a host stretch from its boundary's contents, then a region over its proof
  data, eight times.  Each segment takes the thread state "every unscoped buffer holds this boundary's contents" to the
  same statement at the next boundary, so the chain of sixteen ends with every unscoped buffer of every core at the
  last boundary's contents.  Read against the final state, that names all eight results and all sixteen arguments at
  once: each is one buffer of that last boundary.
-/
import proofs.«141534_j38792144618090_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    buffer of every core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.KernelIdeal.Whole

end
-- ==== Proof.Boundaries.lean ====
/-
  The buffers' contents at the boundaries between the program's sixteen segments.

  The program is eight pairs of segments.  Pair `j` is a host stretch that converts the two operands of product `j` to
  bf16 — into the HBM buffers of index `16 + 3j` and `17 + 3j` — followed by the kernel region that reads those two and
  writes its product into the buffer of index `18 + 3j`.  So pair `j` touches no HBM buffer whose index is below
  `16 + 3j`: the sixteen arguments (indices `0 … 15`) pass through every pair, and the result of product `j'`
  (index `18 + 3j'`) passes through every pair `j > j'`.  Composing these gives the three facts the value needs:
  an argument still holds its launch contents when region `j` is entered; a result, once written, is what the program
  ends with; and the two arrays region `j` reads are the conversions of arguments `j` and `8 + j`.
-/
import proofs.«141534_j38792144618090_2_alg».proof.Proof.Gen.KernelIdeal.Frame
import Idealize.ShloMosaic.Lib.StableHlo.Run

noncomputable section

namespace Cert.KernelIdeal.Bnd

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-- An HBM buffer whose index is below `n`. -/
def Low (n : ℕ) (b : Ref sig .tc) : Prop := b.space = .hbm ∧ b.idx.val < n
instance (n : ℕ) (b : Ref sig .tc) : Decidable (Low n b) := by unfold Low; infer_instance
theorem Low.mono {n n' : ℕ} (h : n ≤ n') {b : Ref sig .tc} : Low n b → Low n' b := fun ⟨hs, hi⟩ => ⟨hs, by omega⟩
theorem Low.ne {n : ℕ} {b b' : Ref sig .tc} (hb : Low n b) (hb' : ¬ Low n b') : b ≠ b' := fun e => hb' (e ▸ hb)

/-- At launch a buffer holds the launch memory's contents. -/
theorem launch (c : Dev nD) (b : Ref sig .tc) : W0 m ρ c (Proc.devRef .tc b) = m ((c : Thread nD τ).loc b) := rfl

/-! ## Each pair of segments leaves the buffers below its own untouched -/

/-- Host stretch 0 writes only buffers 16 and 17. -/
theorem host0 (c : Dev nD) (b : Ref sig .tc) (hb : Low 16 b) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne (hb.ne (by decide)), StableHlo.devRef_ne_of_ne (hb.ne (by decide))⟩))
/-- Pair 0 (stretch 0, then region 0, whose arrays are buffers 16, 17 and 18) keeps every buffer below 16. -/
theorem seg0 (c : Dev nD) (b : Ref sig .tc) (hb : Low 16 b) :
    W2 m ρ c (Proc.devRef .tc b) = W0 m ρ c (Proc.devRef .tc b) :=
  (W2_of_ne m ρ c b fun w e => (by decide : ∀ w : Fin 3, ¬ Low 16 (Pipeline.arrRef spec0 w)) w (e ▸ hb)).trans
    (host0 m ρ c b hb)

/-- Host stretch 1 writes only buffers 19 and 20. -/
theorem host1 (c : Dev nD) (b : Ref sig .tc) (hb : Low 19 b) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne (hb.ne (by decide)), StableHlo.devRef_ne_of_ne (hb.ne (by decide))⟩))
/-- Pair 1 (stretch 1, then region 1, whose arrays are buffers 19, 20 and 21) keeps every buffer below 19. -/
theorem seg1 (c : Dev nD) (b : Ref sig .tc) (hb : Low 19 b) :
    W4 m ρ c (Proc.devRef .tc b) = W2 m ρ c (Proc.devRef .tc b) :=
  (W4_of_ne m ρ c b fun w e => (by decide : ∀ w : Fin 3, ¬ Low 19 (Pipeline.arrRef spec1 w)) w (e ▸ hb)).trans
    (host1 m ρ c b hb)

/-- Host stretch 2 writes only buffers 22 and 23. -/
theorem host2 (c : Dev nD) (b : Ref sig .tc) (hb : Low 22 b) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.unary_writes, Finset.mem_singleton]
    exact ⟨StableHlo.devRef_ne_of_ne (hb.ne (by decide)), StableHlo.devRef_ne_of_ne (hb.ne (by decide))⟩))
/-- Pair 2 (stretch 2, then region 2, whose arrays are buffers 22, 23 and 24) keeps every buffer below 22. -/
theorem seg2 (c : Dev nD) (b : Ref sig .tc) (hb : Low 22 b) :
    W6 m ρ c (Proc.devRef .tc b) = W4 m ρ c (Proc.devRef .tc b) :=
  (W6_of_ne m ρ c b fun w e => (by decide : ∀ w : Fin 3, ¬ Low 22 (Pipeline.arrRef spec2 w)) w (e ▸ hb)).trans
    (host2 m ρ c b hb)

/-- Host stretch 3 writes only buffers 25 and 26. -/
theorem host3 (c : Dev nD) (b : Ref sig .tc) (hb : Low 25 b) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.unary_writes, Finset.mem_singleton]
    exact ⟨StableHlo.devRef_ne_of_ne (hb.ne (by decide)), StableHlo.devRef_ne_of_ne (hb.ne (by decide))⟩))
/-- Pair 3 (stretch 3, then region 3, whose arrays are buffers 25, 26 and 27) keeps every buffer below 25. -/
theorem seg3 (c : Dev nD) (b : Ref sig .tc) (hb : Low 25 b) :
    W8 m ρ c (Proc.devRef .tc b) = W6 m ρ c (Proc.devRef .tc b) :=
  (W8_of_ne m ρ c b fun w e => (by decide : ∀ w : Fin 3, ¬ Low 25 (Pipeline.arrRef spec3 w)) w (e ▸ hb)).trans
    (host3 m ρ c b hb)

/-- Host stretch 4 writes only buffers 28 and 29. -/
theorem host4 (c : Dev nD) (b : Ref sig .tc) (hb : Low 28 b) :
    W9 m ρ c (Proc.devRef .tc b) = W8 m ρ c (Proc.devRef .tc b) :=
  StableHlo.after_of_forall_not_mem (b := Proc.devRef .tc b) _ _ (List.forall_iff_forall_mem.mp (by
    simp only [hostOps4, List.Forall, StableHlo.unary_writes, Finset.mem_singleton]
    exact ⟨StableHlo.devRef_ne_of_ne (hb.ne (by decide)), StableHlo.devRef_ne_of_ne (hb.ne (by decide))⟩))
/-- Pair 4 (stretch 4, then region 4, whose arrays are buffers 28, 29 and 30) keeps every buffer below 28. -/
theorem seg4 (c : Dev nD) (b : Ref sig .tc) (hb : Low 28 b) :
    W10 m ρ c (Proc.devRef .tc b) = W8 m ρ c (Proc.devRef .tc b) :=
  (W10_of_ne m ρ c b fun w e => (by decide : ∀ w : Fin 3, ¬ Low 28 (Pipeline.arrRef spec4 w)) w (e ▸ hb)).trans
    (host4 m ρ c b hb)

/-- Host stretch 5 writes only buffers 31 and 32. -/
theorem host5 (c : Dev nD) (b : Ref sig .tc) (hb : Low 31 b) :
    W11 m ρ c (Proc.devRef .tc b) = W10 m ρ c (Proc.devRef .tc b) :=
  StableHlo.after_of_forall_not_mem (b := Proc.devRef .tc b) _ _ (List.forall_iff_forall_mem.mp (by
    simp only [hostOps5, List.Forall, StableHlo.unary_writes, Finset.mem_singleton]
    exact ⟨StableHlo.devRef_ne_of_ne (hb.ne (by decide)), StableHlo.devRef_ne_of_ne (hb.ne (by decide))⟩))
/-- Pair 5 (stretch 5, then region 5, whose arrays are buffers 31, 32 and 33) keeps every buffer below 31. -/
theorem seg5 (c : Dev nD) (b : Ref sig .tc) (hb : Low 31 b) :
    W12 m ρ c (Proc.devRef .tc b) = W10 m ρ c (Proc.devRef .tc b) :=
  (W12_of_ne m ρ c b fun w e => (by decide : ∀ w : Fin 3, ¬ Low 31 (Pipeline.arrRef spec5 w)) w (e ▸ hb)).trans
    (host5 m ρ c b hb)

/-- Host stretch 6 writes only buffers 34 and 35. -/
theorem host6 (c : Dev nD) (b : Ref sig .tc) (hb : Low 34 b) :
    W13 m ρ c (Proc.devRef .tc b) = W12 m ρ c (Proc.devRef .tc b) :=
  StableHlo.after_of_forall_not_mem (b := Proc.devRef .tc b) _ _ (List.forall_iff_forall_mem.mp (by
    simp only [hostOps6, List.Forall, StableHlo.unary_writes, Finset.mem_singleton]
    exact ⟨StableHlo.devRef_ne_of_ne (hb.ne (by decide)), StableHlo.devRef_ne_of_ne (hb.ne (by decide))⟩))
/-- Pair 6 (stretch 6, then region 6, whose arrays are buffers 34, 35 and 36) keeps every buffer below 34. -/
theorem seg6 (c : Dev nD) (b : Ref sig .tc) (hb : Low 34 b) :
    W14 m ρ c (Proc.devRef .tc b) = W12 m ρ c (Proc.devRef .tc b) :=
  (W14_of_ne m ρ c b fun w e => (by decide : ∀ w : Fin 3, ¬ Low 34 (Pipeline.arrRef spec6 w)) w (e ▸ hb)).trans
    (host6 m ρ c b hb)

/-- Host stretch 7 writes only buffers 37 and 38. -/
theorem host7 (c : Dev nD) (b : Ref sig .tc) (hb : Low 37 b) :
    W15 m ρ c (Proc.devRef .tc b) = W14 m ρ c (Proc.devRef .tc b) :=
  StableHlo.after_of_forall_not_mem (b := Proc.devRef .tc b) _ _ (List.forall_iff_forall_mem.mp (by
    simp only [hostOps7, List.Forall, StableHlo.unary_writes, Finset.mem_singleton]
    exact ⟨StableHlo.devRef_ne_of_ne (hb.ne (by decide)), StableHlo.devRef_ne_of_ne (hb.ne (by decide))⟩))
/-- Pair 7 (stretch 7, then region 7, whose arrays are buffers 37, 38 and 39) keeps every buffer below 37. -/
theorem seg7 (c : Dev nD) (b : Ref sig .tc) (hb : Low 37 b) :
    W16 m ρ c (Proc.devRef .tc b) = W14 m ρ c (Proc.devRef .tc b) :=
  (W16_of_ne m ρ c b fun w e => (by decide : ∀ w : Fin 3, ¬ Low 37 (Pipeline.arrRef spec7 w)) w (e ▸ hb)).trans
    (host7 m ρ c b hb)

/-! ## An argument holds its launch contents when region `j` is entered -/

theorem upto1 (c : Dev nD) (b : Ref sig .tc) (hb : Low 16 b) : W2 m ρ c (Proc.devRef .tc b) = m ((c : Thread nD τ).loc b) :=
  (seg0 m ρ c b hb).trans (launch m ρ c b)
theorem upto2 (c : Dev nD) (b : Ref sig .tc) (hb : Low 16 b) : W4 m ρ c (Proc.devRef .tc b) = m ((c : Thread nD τ).loc b) :=
  (seg1 m ρ c b (hb.mono (by decide))).trans (upto1 m ρ c b hb)
theorem upto3 (c : Dev nD) (b : Ref sig .tc) (hb : Low 16 b) : W6 m ρ c (Proc.devRef .tc b) = m ((c : Thread nD τ).loc b) :=
  (seg2 m ρ c b (hb.mono (by decide))).trans (upto2 m ρ c b hb)
theorem upto4 (c : Dev nD) (b : Ref sig .tc) (hb : Low 16 b) : W8 m ρ c (Proc.devRef .tc b) = m ((c : Thread nD τ).loc b) :=
  (seg3 m ρ c b (hb.mono (by decide))).trans (upto3 m ρ c b hb)
theorem upto5 (c : Dev nD) (b : Ref sig .tc) (hb : Low 16 b) : W10 m ρ c (Proc.devRef .tc b) = m ((c : Thread nD τ).loc b) :=
  (seg4 m ρ c b (hb.mono (by decide))).trans (upto4 m ρ c b hb)
theorem upto6 (c : Dev nD) (b : Ref sig .tc) (hb : Low 16 b) : W12 m ρ c (Proc.devRef .tc b) = m ((c : Thread nD τ).loc b) :=
  (seg5 m ρ c b (hb.mono (by decide))).trans (upto5 m ρ c b hb)
theorem upto7 (c : Dev nD) (b : Ref sig .tc) (hb : Low 16 b) : W14 m ρ c (Proc.devRef .tc b) = m ((c : Thread nD τ).loc b) :=
  (seg6 m ρ c b (hb.mono (by decide))).trans (upto6 m ρ c b hb)

/-! ## A buffer below pair `j`'s ends as it stood when pair `j` began -/

theorem from7 (c : Dev nD) (b : Ref sig .tc) (hb : Low 37 b) : W16 m ρ c (Proc.devRef .tc b) = W14 m ρ c (Proc.devRef .tc b) :=
  seg7 m ρ c b hb
theorem from6 (c : Dev nD) (b : Ref sig .tc) (hb : Low 34 b) : W16 m ρ c (Proc.devRef .tc b) = W12 m ρ c (Proc.devRef .tc b) :=
  (from7 m ρ c b (hb.mono (by decide))).trans (seg6 m ρ c b hb)
theorem from5 (c : Dev nD) (b : Ref sig .tc) (hb : Low 31 b) : W16 m ρ c (Proc.devRef .tc b) = W10 m ρ c (Proc.devRef .tc b) :=
  (from6 m ρ c b (hb.mono (by decide))).trans (seg5 m ρ c b hb)
theorem from4 (c : Dev nD) (b : Ref sig .tc) (hb : Low 28 b) : W16 m ρ c (Proc.devRef .tc b) = W8 m ρ c (Proc.devRef .tc b) :=
  (from5 m ρ c b (hb.mono (by decide))).trans (seg4 m ρ c b hb)
theorem from3 (c : Dev nD) (b : Ref sig .tc) (hb : Low 25 b) : W16 m ρ c (Proc.devRef .tc b) = W6 m ρ c (Proc.devRef .tc b) :=
  (from4 m ρ c b (hb.mono (by decide))).trans (seg3 m ρ c b hb)
theorem from2 (c : Dev nD) (b : Ref sig .tc) (hb : Low 22 b) : W16 m ρ c (Proc.devRef .tc b) = W4 m ρ c (Proc.devRef .tc b) :=
  (from3 m ρ c b (hb.mono (by decide))).trans (seg2 m ρ c b hb)
theorem from1 (c : Dev nD) (b : Ref sig .tc) (hb : Low 19 b) : W16 m ρ c (Proc.devRef .tc b) = W2 m ρ c (Proc.devRef .tc b) :=
  (from2 m ρ c b (hb.mono (by decide))).trans (seg1 m ρ c b hb)

/-! ## The two arrays region `j` reads: arguments `j` and `8 + j`, converted to bf16 -/

theorem entryA0 (c : Dev nD) :
    W1 m ρ c (Proc.devRef .tc main_call0_v0) = truncf .bf16 (m ((c : Thread nD τ).loc main_arg0)) bitsLt_bf16_f32 := by
  have h : W1 m ρ c (Proc.devRef .tc main_call0_v0)
      = truncf .bf16 (W0 m ρ c (Proc.devRef .tc main_arg0)) bitsLt_bf16_f32 := by
    show StableHlo.after hostOps0 (W0 m ρ c) (Proc.devRef .tc main_call0_v0) = _
    after_results
    rfl
  rw [h, launch m ρ c main_arg0]

theorem entryB0 (c : Dev nD) :
    W1 m ρ c (Proc.devRef .tc main_call0_v1) = truncf .bf16 (m ((c : Thread nD τ).loc main_arg8)) bitsLt_bf16_f32 := by
  have h : W1 m ρ c (Proc.devRef .tc main_call0_v1)
      = truncf .bf16 (W0 m ρ c (Proc.devRef .tc main_arg8)) bitsLt_bf16_f32 := by
    show StableHlo.after hostOps0 (W0 m ρ c) (Proc.devRef .tc main_call0_v1) = _
    after_results
    rfl
  rw [h, launch m ρ c main_arg8]

theorem entryA1 (c : Dev nD) :
    W3 m ρ c (Proc.devRef .tc main_call0_v3) = truncf .bf16 (m ((c : Thread nD τ).loc main_arg1)) bitsLt_bf16_f32 := by
  have h : W3 m ρ c (Proc.devRef .tc main_call0_v3)
      = truncf .bf16 (W2 m ρ c (Proc.devRef .tc main_arg1)) bitsLt_bf16_f32 := by
    show StableHlo.after hostOps1 (W2 m ρ c) (Proc.devRef .tc main_call0_v3) = _
    after_results
    rfl
  rw [h, upto1 m ρ c main_arg1 (by decide)]

theorem entryB1 (c : Dev nD) :
    W3 m ρ c (Proc.devRef .tc main_call0_v4) = truncf .bf16 (m ((c : Thread nD τ).loc main_arg9)) bitsLt_bf16_f32 := by
  have h : W3 m ρ c (Proc.devRef .tc main_call0_v4)
      = truncf .bf16 (W2 m ρ c (Proc.devRef .tc main_arg9)) bitsLt_bf16_f32 := by
    show StableHlo.after hostOps1 (W2 m ρ c) (Proc.devRef .tc main_call0_v4) = _
    after_results
    rfl
  rw [h, upto1 m ρ c main_arg9 (by decide)]

theorem entryA2 (c : Dev nD) :
    W5 m ρ c (Proc.devRef .tc main_call0_v6) = truncf .bf16 (m ((c : Thread nD τ).loc main_arg2)) bitsLt_bf16_f32 := by
  have h : W5 m ρ c (Proc.devRef .tc main_call0_v6)
      = truncf .bf16 (W4 m ρ c (Proc.devRef .tc main_arg2)) bitsLt_bf16_f32 := by
    show StableHlo.after hostOps2 (W4 m ρ c) (Proc.devRef .tc main_call0_v6) = _
    after_results
    rfl
  rw [h, upto2 m ρ c main_arg2 (by decide)]

theorem entryB2 (c : Dev nD) :
    W5 m ρ c (Proc.devRef .tc main_call0_v7) = truncf .bf16 (m ((c : Thread nD τ).loc main_arg10)) bitsLt_bf16_f32 := by
  have h : W5 m ρ c (Proc.devRef .tc main_call0_v7)
      = truncf .bf16 (W4 m ρ c (Proc.devRef .tc main_arg10)) bitsLt_bf16_f32 := by
    show StableHlo.after hostOps2 (W4 m ρ c) (Proc.devRef .tc main_call0_v7) = _
    after_results
    rfl
  rw [h, upto2 m ρ c main_arg10 (by decide)]

theorem entryA3 (c : Dev nD) :
    W7 m ρ c (Proc.devRef .tc main_call0_v9) = truncf .bf16 (m ((c : Thread nD τ).loc main_arg3)) bitsLt_bf16_f32 := by
  have h : W7 m ρ c (Proc.devRef .tc main_call0_v9)
      = truncf .bf16 (W6 m ρ c (Proc.devRef .tc main_arg3)) bitsLt_bf16_f32 := by
    show StableHlo.after hostOps3 (W6 m ρ c) (Proc.devRef .tc main_call0_v9) = _
    after_results
    rfl
  rw [h, upto3 m ρ c main_arg3 (by decide)]

theorem entryB3 (c : Dev nD) :
    W7 m ρ c (Proc.devRef .tc main_call0_v10) = truncf .bf16 (m ((c : Thread nD τ).loc main_arg11)) bitsLt_bf16_f32 := by
  have h : W7 m ρ c (Proc.devRef .tc main_call0_v10)
      = truncf .bf16 (W6 m ρ c (Proc.devRef .tc main_arg11)) bitsLt_bf16_f32 := by
    show StableHlo.after hostOps3 (W6 m ρ c) (Proc.devRef .tc main_call0_v10) = _
    after_results
    rfl
  rw [h, upto3 m ρ c main_arg11 (by decide)]

theorem entryA4 (c : Dev nD) :
    W9 m ρ c (Proc.devRef .tc main_call0_v12) = truncf .bf16 (m ((c : Thread nD τ).loc main_arg4)) bitsLt_bf16_f32 := by
  have h : W9 m ρ c (Proc.devRef .tc main_call0_v12)
      = truncf .bf16 (W8 m ρ c (Proc.devRef .tc main_arg4)) bitsLt_bf16_f32 := by
    show StableHlo.after hostOps4 (W8 m ρ c) (Proc.devRef .tc main_call0_v12) = _
    after_results
    rfl
  rw [h, upto4 m ρ c main_arg4 (by decide)]

theorem entryB4 (c : Dev nD) :
    W9 m ρ c (Proc.devRef .tc main_call0_v13) = truncf .bf16 (m ((c : Thread nD τ).loc main_arg12)) bitsLt_bf16_f32 := by
  have h : W9 m ρ c (Proc.devRef .tc main_call0_v13)
      = truncf .bf16 (W8 m ρ c (Proc.devRef .tc main_arg12)) bitsLt_bf16_f32 := by
    show StableHlo.after hostOps4 (W8 m ρ c) (Proc.devRef .tc main_call0_v13) = _
    after_results
    rfl
  rw [h, upto4 m ρ c main_arg12 (by decide)]

theorem entryA5 (c : Dev nD) :
    W11 m ρ c (Proc.devRef .tc main_call0_v15) = truncf .bf16 (m ((c : Thread nD τ).loc main_arg5)) bitsLt_bf16_f32 := by
  have h : W11 m ρ c (Proc.devRef .tc main_call0_v15)
      = truncf .bf16 (W10 m ρ c (Proc.devRef .tc main_arg5)) bitsLt_bf16_f32 := by
    show StableHlo.after hostOps5 (W10 m ρ c) (Proc.devRef .tc main_call0_v15) = _
    after_results
    rfl
  rw [h, upto5 m ρ c main_arg5 (by decide)]

theorem entryB5 (c : Dev nD) :
    W11 m ρ c (Proc.devRef .tc main_call0_v16) = truncf .bf16 (m ((c : Thread nD τ).loc main_arg13)) bitsLt_bf16_f32 := by
  have h : W11 m ρ c (Proc.devRef .tc main_call0_v16)
      = truncf .bf16 (W10 m ρ c (Proc.devRef .tc main_arg13)) bitsLt_bf16_f32 := by
    show StableHlo.after hostOps5 (W10 m ρ c) (Proc.devRef .tc main_call0_v16) = _
    after_results
    rfl
  rw [h, upto5 m ρ c main_arg13 (by decide)]

theorem entryA6 (c : Dev nD) :
    W13 m ρ c (Proc.devRef .tc main_call0_v18) = truncf .bf16 (m ((c : Thread nD τ).loc main_arg6)) bitsLt_bf16_f32 := by
  have h : W13 m ρ c (Proc.devRef .tc main_call0_v18)
      = truncf .bf16 (W12 m ρ c (Proc.devRef .tc main_arg6)) bitsLt_bf16_f32 := by
    show StableHlo.after hostOps6 (W12 m ρ c) (Proc.devRef .tc main_call0_v18) = _
    after_results
    rfl
  rw [h, upto6 m ρ c main_arg6 (by decide)]

theorem entryB6 (c : Dev nD) :
    W13 m ρ c (Proc.devRef .tc main_call0_v19) = truncf .bf16 (m ((c : Thread nD τ).loc main_arg14)) bitsLt_bf16_f32 := by
  have h : W13 m ρ c (Proc.devRef .tc main_call0_v19)
      = truncf .bf16 (W12 m ρ c (Proc.devRef .tc main_arg14)) bitsLt_bf16_f32 := by
    show StableHlo.after hostOps6 (W12 m ρ c) (Proc.devRef .tc main_call0_v19) = _
    after_results
    rfl
  rw [h, upto6 m ρ c main_arg14 (by decide)]

theorem entryA7 (c : Dev nD) :
    W15 m ρ c (Proc.devRef .tc main_call0_v21) = truncf .bf16 (m ((c : Thread nD τ).loc main_arg7)) bitsLt_bf16_f32 := by
  have h : W15 m ρ c (Proc.devRef .tc main_call0_v21)
      = truncf .bf16 (W14 m ρ c (Proc.devRef .tc main_arg7)) bitsLt_bf16_f32 := by
    show StableHlo.after hostOps7 (W14 m ρ c) (Proc.devRef .tc main_call0_v21) = _
    after_results
    rfl
  rw [h, upto7 m ρ c main_arg7 (by decide)]

theorem entryB7 (c : Dev nD) :
    W15 m ρ c (Proc.devRef .tc main_call0_v22) = truncf .bf16 (m ((c : Thread nD τ).loc main_arg15)) bitsLt_bf16_f32 := by
  have h : W15 m ρ c (Proc.devRef .tc main_call0_v22)
      = truncf .bf16 (W14 m ρ c (Proc.devRef .tc main_arg15)) bitsLt_bf16_f32 := by
    show StableHlo.after hostOps7 (W14 m ρ c) (Proc.devRef .tc main_call0_v22) = _
    after_results
    rfl
  rw [h, upto7 m ρ c main_arg15 (by decide)]

end Cert.KernelIdeal.Bnd

end
-- ==== Proof.Tiles0.lean ====
/-
  Product 0: a 4096 × 2048 matrix times a 2048 × 8192 matrix, computed tile by tile.

  The region's grid has 8 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 4096 rows of 2048 entries. -/
abbrev A (c : Dev nD) : S4096x2048.Idx → EReal := V c (Pipeline.arrRef spec0 0)
/-- The right operand as the region finds it: 2048 rows of 8192 entries. -/
abbrev B (c : Dev nD) : S2048x8192.Idx → EReal := V c (Pipeline.arrRef spec0 1)

theorem origin : (![0, 0] : Fin 2 → Nat) = fun _ => 0 := funext fun a => by fin_cases a <;> rfl

/-- The three block-index maps, decided over the grid's 32 points: the row block of the left operand is the output
    tile's row block and spans every column; the column block of the right operand is the output tile's column block
    and spans every row. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every one of the 8 × 4 output tiles is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg0.N) :
    (dat0 V c).flushed 2 t = ((cfg0.win 2).blk t).view.read (Elt Ideal) (Cert.Gemm.prod (A V c) (B V c)) := by
  show (cfg0.win 2).cut (grid0.coords t) ((dat0 V c).after 2 t) = _
  rw [after0_2]
  unfold out0_2
  rw [View.canon_unit_zero origin]
  simp only [View.ld_unit_zero (S := S512x2048) origin, View.ld_unit_zero (S := S2048x2048) origin]
  obtain ⟨e00, e01, e10, e11⟩ := idx_facts t
  funext y
  show k0_pay1 (iblk0 V c 0 t) (iblk0 V c 1 t) y = Cert.Gemm.prod (A V c) (B V c) (((cfg0.win 2).blk t).view.emb y)
  refine Cert.Gemm.tile_apply (A V c) (B V c) (iblk0 V c 0 t) (iblk0 V c 1 t)
    dot_S512x2048_S2048x2048_S512x2048_1_0_0_1_n_n rfl shapeCasts_S512x2048_S512x2048 shapeCasts_S2048x2048_S2048x2048
    y (((cfg0.win 2).blk t).view.emb y) (fun k => ?_) (fun k => ?_)
  · show A V c (((cfg0.win 0).blk t).view.emb (ix2 (y 0) k)) = A V c (ix2 ((((cfg0.win 2).blk t).view.emb y) 0) k)
    refine congrArg (A V c) (funext fun a => Fin.ext ?_)
    match a with
    | ⟨0, _⟩ => show win0_0.index t (0 : Fin 2) * 512 + 1 * (y 0).val = win0_2.index t (0 : Fin 2) * 512 + 1 * (y 0).val; omega
    | ⟨1, _⟩ => show win0_0.index t (1 : Fin 2) * 2048 + 1 * k.val = k.val; omega
  · show B V c (((cfg0.win 1).blk t).view.emb (ix2 k (y 1))) = B V c (ix2 k ((((cfg0.win 2).blk t).view.emb y) 1))
    refine congrArg (B V c) (funext fun a => Fin.ext ?_)
    match a with
    | ⟨0, _⟩ => show win0_1.index t (0 : Fin 2) * 2048 + 1 * k.val = k.val; omega
    | ⟨1, _⟩ => show win0_1.index t (1 : Fin 2) * 2048 + 1 * (y 1).val = win0_2.index t (1 : Fin 2) * 2048 + 1 * (y 1).val; omega

/-- An entry of the output is in point `t`'s tile iff each coordinate is in the tile's range on its axis. -/
theorem mem_blk (t : Fin cfg0.N) (i : S4096x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0_0).slice (win0_2.rect t)).set ↔ _
  rw [View.set_slice_whole, Rect.mem_set_unit]
  exact Iff.rfl

/-- The tiles cover the output: entry `(r, c)` is in tile `(r / 512, c / 2048)`. -/
theorem cover (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- After the region the output array holds the whole product of the operands it was entered with. -/
theorem final (c : Dev nD) : (dat0 V c).arrAt 2 cfg0.N = Cert.Gemm.prod (A V c) (B V c) :=
  (dat0 V c).arrAt_eq_of_cover 2 (Cert.Gemm.prod (A V c) (B V c)) (fun t _ => flushed_eq V c t) (cover)

end Cert.KernelIdeal.Tiles0

end
-- ==== Proof.Tiles1.lean ====
/-
  Product 1: a 1024 × 2048 matrix times a 2048 × 8192 matrix, computed tile by tile.

  The region's grid has 2 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 1024 rows of 2048 entries. -/
abbrev A (c : Dev nD) : S1024x2048.Idx → EReal := V c (Pipeline.arrRef spec1 0)
/-- The right operand as the region finds it: 2048 rows of 8192 entries. -/
abbrev B (c : Dev nD) : S2048x8192.Idx → EReal := V c (Pipeline.arrRef spec1 1)

theorem origin : (![0, 0] : Fin 2 → Nat) = fun _ => 0 := funext fun a => by fin_cases a <;> rfl

/-- The three block-index maps, decided over the grid's 8 points: the row block of the left operand is the output
    tile's row block and spans every column; the column block of the right operand is the output tile's column block
    and spans every row. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) :=
  (by decide +kernel : ∀ t : Fin grid1.N, _)

/-- Every one of the 2 × 4 output tiles is some point's. -/
theorem idx_onto : ∀ (q0 : Fin 2) (q1 : Fin 4), ∃ t : Fin cfg1.N, win1_2.index t = ![q0.val, q1.val] :=
  (by decide +kernel : ∀ (q0 : Fin 2) (q1 : Fin 4), ∃ t : Fin grid1.N, win1_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg1.N) :
    (dat1 V c).flushed 2 t = ((cfg1.win 2).blk t).view.read (Elt Ideal) (Cert.Gemm.prod (A V c) (B V c)) := by
  show (cfg1.win 2).cut (grid1.coords t) ((dat1 V c).after 2 t) = _
  rw [after1_2]
  unfold out1_2
  rw [View.canon_unit_zero origin]
  simp only [View.ld_unit_zero (S := S512x2048) origin, View.ld_unit_zero (S := S2048x2048) origin]
  obtain ⟨e00, e01, e10, e11⟩ := idx_facts t
  funext y
  show k1_pay1 (iblk1 V c 0 t) (iblk1 V c 1 t) y = Cert.Gemm.prod (A V c) (B V c) (((cfg1.win 2).blk t).view.emb y)
  refine Cert.Gemm.tile_apply (A V c) (B V c) (iblk1 V c 0 t) (iblk1 V c 1 t)
    dot_S512x2048_S2048x2048_S512x2048_1_0_0_1_n_n rfl shapeCasts_S512x2048_S512x2048 shapeCasts_S2048x2048_S2048x2048
    y (((cfg1.win 2).blk t).view.emb y) (fun k => ?_) (fun k => ?_)
  · show A V c (((cfg1.win 0).blk t).view.emb (ix2 (y 0) k)) = A V c (ix2 ((((cfg1.win 2).blk t).view.emb y) 0) k)
    refine congrArg (A V c) (funext fun a => Fin.ext ?_)
    match a with
    | ⟨0, _⟩ => show win1_0.index t (0 : Fin 2) * 512 + 1 * (y 0).val = win1_2.index t (0 : Fin 2) * 512 + 1 * (y 0).val; omega
    | ⟨1, _⟩ => show win1_0.index t (1 : Fin 2) * 2048 + 1 * k.val = k.val; omega
  · show B V c (((cfg1.win 1).blk t).view.emb (ix2 k (y 1))) = B V c (ix2 k ((((cfg1.win 2).blk t).view.emb y) 1))
    refine congrArg (B V c) (funext fun a => Fin.ext ?_)
    match a with
    | ⟨0, _⟩ => show win1_1.index t (0 : Fin 2) * 2048 + 1 * k.val = k.val; omega
    | ⟨1, _⟩ => show win1_1.index t (1 : Fin 2) * 2048 + 1 * (y 1).val = win1_2.index t (1 : Fin 2) * 2048 + 1 * (y 1).val; omega

/-- An entry of the output is in point `t`'s tile iff each coordinate is in the tile's range on its axis. -/
theorem mem_blk (t : Fin cfg1.N) (i : S1024x8192.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v0_1).slice (win1_2.rect t)).set ↔ _
  rw [View.set_slice_whole, Rect.mem_set_unit]
  exact Iff.rfl

/-- The tiles cover the output: entry `(r, c)` is in tile `(r / 512, c / 2048)`. -/
theorem cover (i : S1024x8192.Idx) : ∃ t : Fin cfg1.N, (cfg1.win 2).flush t = true ∧ i ∈ ((cfg1.win 2).blk t).view.set := by
  have hi0 : (i 0).val < 1024 := (i 0).isLt
  have hi1 : (i 1).val < 8192 := (i 1).isLt
  obtain ⟨t, ht⟩ := idx_onto ⟨(i 0).val / 512, by omega⟩ ⟨(i 1).val / 2048, by omega⟩
  have q0 : win1_2.index t (0 : Fin 2) = (i 0).val / 512 := congrFun ht 0
  have q1 : win1_2.index t (1 : Fin 2) = (i 1).val / 2048 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- After the region the output array holds the whole product of the operands it was entered with. -/
theorem final (c : Dev nD) : (dat1 V c).arrAt 2 cfg1.N = Cert.Gemm.prod (A V c) (B V c) :=
  (dat1 V c).arrAt_eq_of_cover 2 (Cert.Gemm.prod (A V c) (B V c)) (fun t _ => flushed_eq V c t) (cover)

end Cert.KernelIdeal.Tiles1

end
-- ==== Proof.Tiles2.lean ====
/-
  Product 2: a 2048 × 2048 matrix times a 2048 × 8192 matrix, computed tile by tile.

  The region's grid has 4 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 2048 rows of 2048 entries. -/
abbrev A (c : Dev nD) : S2048x2048.Idx → EReal := V c (Pipeline.arrRef spec2 0)
/-- The right operand as the region finds it: 2048 rows of 8192 entries. -/
abbrev B (c : Dev nD) : S2048x8192.Idx → EReal := V c (Pipeline.arrRef spec2 1)

theorem origin : (![0, 0] : Fin 2 → Nat) = fun _ => 0 := funext fun a => by fin_cases a <;> rfl

/-- The three block-index maps, decided over the grid's 16 points: the row block of the left operand is the output
    tile's row block and spans every column; the column block of the right operand is the output tile's column block
    and spans every row. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = win2_2.index t (1 : Fin 2) :=
  (by decide +kernel : ∀ t : Fin grid2.N, _)

/-- Every one of the 4 × 4 output tiles is some point's. -/
theorem idx_onto : ∀ (q0 : Fin 4) (q1 : Fin 4), ∃ t : Fin cfg2.N, win2_2.index t = ![q0.val, q1.val] :=
  (by decide +kernel : ∀ (q0 : Fin 4) (q1 : Fin 4), ∃ t : Fin grid2.N, win2_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg2.N) :
    (dat2 V c).flushed 2 t = ((cfg2.win 2).blk t).view.read (Elt Ideal) (Cert.Gemm.prod (A V c) (B V c)) := by
  show (cfg2.win 2).cut (grid2.coords t) ((dat2 V c).after 2 t) = _
  rw [after2_2]
  unfold out2_2
  rw [View.canon_unit_zero origin]
  simp only [View.ld_unit_zero (S := S512x2048) origin, View.ld_unit_zero (S := S2048x2048) origin]
  obtain ⟨e00, e01, e10, e11⟩ := idx_facts t
  funext y
  show k2_pay1 (iblk2 V c 0 t) (iblk2 V c 1 t) y = Cert.Gemm.prod (A V c) (B V c) (((cfg2.win 2).blk t).view.emb y)
  refine Cert.Gemm.tile_apply (A V c) (B V c) (iblk2 V c 0 t) (iblk2 V c 1 t)
    dot_S512x2048_S2048x2048_S512x2048_1_0_0_1_n_n rfl shapeCasts_S512x2048_S512x2048 shapeCasts_S2048x2048_S2048x2048
    y (((cfg2.win 2).blk t).view.emb y) (fun k => ?_) (fun k => ?_)
  · show A V c (((cfg2.win 0).blk t).view.emb (ix2 (y 0) k)) = A V c (ix2 ((((cfg2.win 2).blk t).view.emb y) 0) k)
    refine congrArg (A V c) (funext fun a => Fin.ext ?_)
    match a with
    | ⟨0, _⟩ => show win2_0.index t (0 : Fin 2) * 512 + 1 * (y 0).val = win2_2.index t (0 : Fin 2) * 512 + 1 * (y 0).val; omega
    | ⟨1, _⟩ => show win2_0.index t (1 : Fin 2) * 2048 + 1 * k.val = k.val; omega
  · show B V c (((cfg2.win 1).blk t).view.emb (ix2 k (y 1))) = B V c (ix2 k ((((cfg2.win 2).blk t).view.emb y) 1))
    refine congrArg (B V c) (funext fun a => Fin.ext ?_)
    match a with
    | ⟨0, _⟩ => show win2_1.index t (0 : Fin 2) * 2048 + 1 * k.val = k.val; omega
    | ⟨1, _⟩ => show win2_1.index t (1 : Fin 2) * 2048 + 1 * (y 1).val = win2_2.index t (1 : Fin 2) * 2048 + 1 * (y 1).val; omega

/-- An entry of the output is in point `t`'s tile iff each coordinate is in the tile's range on its axis. -/
theorem mem_blk (t : Fin cfg2.N) (i : S2048x8192.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v0_2).slice (win2_2.rect t)).set ↔ _
  rw [View.set_slice_whole, Rect.mem_set_unit]
  exact Iff.rfl

/-- The tiles cover the output: entry `(r, c)` is in tile `(r / 512, c / 2048)`. -/
theorem cover (i : S2048x8192.Idx) : ∃ t : Fin cfg2.N, (cfg2.win 2).flush t = true ∧ i ∈ ((cfg2.win 2).blk t).view.set := by
  have hi0 : (i 0).val < 2048 := (i 0).isLt
  have hi1 : (i 1).val < 8192 := (i 1).isLt
  obtain ⟨t, ht⟩ := idx_onto ⟨(i 0).val / 512, by omega⟩ ⟨(i 1).val / 2048, by omega⟩
  have q0 : win2_2.index t (0 : Fin 2) = (i 0).val / 512 := congrFun ht 0
  have q1 : win2_2.index t (1 : Fin 2) = (i 1).val / 2048 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 2048 ≤ (i 1).val ∧ (i 1).val < win2_2.index t (1 : Fin 2) * 2048 + 2048; omega

/-- After the region the output array holds the whole product of the operands it was entered with. -/
theorem final (c : Dev nD) : (dat2 V c).arrAt 2 cfg2.N = Cert.Gemm.prod (A V c) (B V c) :=
  (dat2 V c).arrAt_eq_of_cover 2 (Cert.Gemm.prod (A V c) (B V c)) (fun t _ => flushed_eq V c t) (cover)

end Cert.KernelIdeal.Tiles2

end
-- ==== Proof.Tiles3.lean ====
/-
  Product 3: a 3072 × 2048 matrix times a 2048 × 8192 matrix, computed tile by tile.

  The region's grid has 6 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 3072 rows of 2048 entries. -/
abbrev A (c : Dev nD) : S3072x2048.Idx → EReal := V c (Pipeline.arrRef spec3 0)
/-- The right operand as the region finds it: 2048 rows of 8192 entries. -/
abbrev B (c : Dev nD) : S2048x8192.Idx → EReal := V c (Pipeline.arrRef spec3 1)

theorem origin : (![0, 0] : Fin 2 → Nat) = fun _ => 0 := funext fun a => by fin_cases a <;> rfl

/-- The three block-index maps, decided over the grid's 24 points: the row block of the left operand is the output
    tile's row block and spans every column; the column block of the right operand is the output tile's column block
    and spans every row. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = win3_2.index t (1 : Fin 2) :=
  (by decide +kernel : ∀ t : Fin grid3.N, _)

/-- Every one of the 6 × 4 output tiles is some point's. -/
theorem idx_onto : ∀ (q0 : Fin 6) (q1 : Fin 4), ∃ t : Fin cfg3.N, win3_2.index t = ![q0.val, q1.val] :=
  (by decide +kernel : ∀ (q0 : Fin 6) (q1 : Fin 4), ∃ t : Fin grid3.N, win3_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg3.N) :
    (dat3 V c).flushed 2 t = ((cfg3.win 2).blk t).view.read (Elt Ideal) (Cert.Gemm.prod (A V c) (B V c)) := by
  show (cfg3.win 2).cut (grid3.coords t) ((dat3 V c).after 2 t) = _
  rw [after3_2]
  unfold out3_2
  rw [View.canon_unit_zero origin]
  simp only [View.ld_unit_zero (S := S512x2048) origin, View.ld_unit_zero (S := S2048x2048) origin]
  obtain ⟨e00, e01, e10, e11⟩ := idx_facts t
  funext y
  show k3_pay1 (iblk3 V c 0 t) (iblk3 V c 1 t) y = Cert.Gemm.prod (A V c) (B V c) (((cfg3.win 2).blk t).view.emb y)
  refine Cert.Gemm.tile_apply (A V c) (B V c) (iblk3 V c 0 t) (iblk3 V c 1 t)
    dot_S512x2048_S2048x2048_S512x2048_1_0_0_1_n_n rfl shapeCasts_S512x2048_S512x2048 shapeCasts_S2048x2048_S2048x2048
    y (((cfg3.win 2).blk t).view.emb y) (fun k => ?_) (fun k => ?_)
  · show A V c (((cfg3.win 0).blk t).view.emb (ix2 (y 0) k)) = A V c (ix2 ((((cfg3.win 2).blk t).view.emb y) 0) k)
    refine congrArg (A V c) (funext fun a => Fin.ext ?_)
    match a with
    | ⟨0, _⟩ => show win3_0.index t (0 : Fin 2) * 512 + 1 * (y 0).val = win3_2.index t (0 : Fin 2) * 512 + 1 * (y 0).val; omega
    | ⟨1, _⟩ => show win3_0.index t (1 : Fin 2) * 2048 + 1 * k.val = k.val; omega
  · show B V c (((cfg3.win 1).blk t).view.emb (ix2 k (y 1))) = B V c (ix2 k ((((cfg3.win 2).blk t).view.emb y) 1))
    refine congrArg (B V c) (funext fun a => Fin.ext ?_)
    match a with
    | ⟨0, _⟩ => show win3_1.index t (0 : Fin 2) * 2048 + 1 * k.val = k.val; omega
    | ⟨1, _⟩ => show win3_1.index t (1 : Fin 2) * 2048 + 1 * (y 1).val = win3_2.index t (1 : Fin 2) * 2048 + 1 * (y 1).val; omega

/-- An entry of the output is in point `t`'s tile iff each coordinate is in the tile's range on its axis. -/
theorem mem_blk (t : Fin cfg3.N) (i : S3072x8192.Idx) :
    i ∈ ((cfg3.win 2).blk t).view.set ↔ ∀ a : Fin 2, win3_2.index t a * S512x2048.size a ≤ (i a).val ∧ (i a).val < win3_2.index t a * S512x2048.size a + S512x2048.size a := by
  show i ∈ ((View.whole main_v0_3).slice (win3_2.rect t)).set ↔ _
  rw [View.set_slice_whole, Rect.mem_set_unit]
  exact Iff.rfl

/-- The tiles cover the output: entry `(r, c)` is in tile `(r / 512, c / 2048)`. -/
theorem cover (i : S3072x8192.Idx) : ∃ t : Fin cfg3.N, (cfg3.win 2).flush t = true ∧ i ∈ ((cfg3.win 2).blk t).view.set := by
  have hi0 : (i 0).val < 3072 := (i 0).isLt
  have hi1 : (i 1).val < 8192 := (i 1).isLt
  obtain ⟨t, ht⟩ := idx_onto ⟨(i 0).val / 512, by omega⟩ ⟨(i 1).val / 2048, by omega⟩
  have q0 : win3_2.index t (0 : Fin 2) = (i 0).val / 512 := congrFun ht 0
  have q1 : win3_2.index t (1 : Fin 2) = (i 1).val / 2048 := congrFun ht 1
  refine ⟨t, flush3_2 t, ?_⟩
  rw [mem_blk]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 2048 ≤ (i 1).val ∧ (i 1).val < win3_2.index t (1 : Fin 2) * 2048 + 2048; omega

/-- After the region the output array holds the whole product of the operands it was entered with. -/
theorem final (c : Dev nD) : (dat3 V c).arrAt 2 cfg3.N = Cert.Gemm.prod (A V c) (B V c) :=
  (dat3 V c).arrAt_eq_of_cover 2 (Cert.Gemm.prod (A V c) (B V c)) (fun t _ => flushed_eq V c t) (cover)

end Cert.KernelIdeal.Tiles3

end
-- ==== Proof.Tiles4.lean ====
/-
  Product 4: a 512 × 2048 matrix times a 2048 × 8192 matrix, computed tile by tile.

  The region's grid has 1 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles4

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 512 rows of 2048 entries. -/
abbrev A (c : Dev nD) : S512x2048.Idx → EReal := V c (Pipeline.arrRef spec4 0)
/-- The right operand as the region finds it: 2048 rows of 8192 entries. -/
abbrev B (c : Dev nD) : S2048x8192.Idx → EReal := V c (Pipeline.arrRef spec4 1)

theorem origin : (![0, 0] : Fin 2 → Nat) = fun _ => 0 := funext fun a => by fin_cases a <;> rfl

/-- The three block-index maps, decided over the grid's 4 points: the row block of the left operand is the output
    tile's row block and spans every column; the column block of the right operand is the output tile's column block
    and spans every row. -/
theorem idx_facts : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = win4_2.index t (1 : Fin 2) :=
  (by decide +kernel : ∀ t : Fin grid4.N, _)

/-- Every one of the 1 × 4 output tiles is some point's. -/
theorem idx_onto : ∀ (q0 : Fin 1) (q1 : Fin 4), ∃ t : Fin cfg4.N, win4_2.index t = ![q0.val, q1.val] :=
  (by decide +kernel : ∀ (q0 : Fin 1) (q1 : Fin 4), ∃ t : Fin grid4.N, win4_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg4.N) :
    (dat4 V c).flushed 2 t = ((cfg4.win 2).blk t).view.read (Elt Ideal) (Cert.Gemm.prod (A V c) (B V c)) := by
  show (cfg4.win 2).cut (grid4.coords t) ((dat4 V c).after 2 t) = _
  rw [after4_2]
  unfold out4_2
  rw [View.canon_unit_zero origin]
  simp only [View.ld_unit_zero (S := S512x2048) origin, View.ld_unit_zero (S := S2048x2048) origin]
  obtain ⟨e00, e01, e10, e11⟩ := idx_facts t
  funext y
  show k4_pay1 (iblk4 V c 0 t) (iblk4 V c 1 t) y = Cert.Gemm.prod (A V c) (B V c) (((cfg4.win 2).blk t).view.emb y)
  refine Cert.Gemm.tile_apply (A V c) (B V c) (iblk4 V c 0 t) (iblk4 V c 1 t)
    dot_S512x2048_S2048x2048_S512x2048_1_0_0_1_n_n rfl shapeCasts_S512x2048_S512x2048 shapeCasts_S2048x2048_S2048x2048
    y (((cfg4.win 2).blk t).view.emb y) (fun k => ?_) (fun k => ?_)
  · show A V c (((cfg4.win 0).blk t).view.emb (ix2 (y 0) k)) = A V c (ix2 ((((cfg4.win 2).blk t).view.emb y) 0) k)
    refine congrArg (A V c) (funext fun a => Fin.ext ?_)
    match a with
    | ⟨0, _⟩ => show win4_0.index t (0 : Fin 2) * 512 + 1 * (y 0).val = win4_2.index t (0 : Fin 2) * 512 + 1 * (y 0).val; omega
    | ⟨1, _⟩ => show win4_0.index t (1 : Fin 2) * 2048 + 1 * k.val = k.val; omega
  · show B V c (((cfg4.win 1).blk t).view.emb (ix2 k (y 1))) = B V c (ix2 k ((((cfg4.win 2).blk t).view.emb y) 1))
    refine congrArg (B V c) (funext fun a => Fin.ext ?_)
    match a with
    | ⟨0, _⟩ => show win4_1.index t (0 : Fin 2) * 2048 + 1 * k.val = k.val; omega
    | ⟨1, _⟩ => show win4_1.index t (1 : Fin 2) * 2048 + 1 * (y 1).val = win4_2.index t (1 : Fin 2) * 2048 + 1 * (y 1).val; omega

/-- An entry of the output is in point `t`'s tile iff each coordinate is in the tile's range on its axis. -/
theorem mem_blk (t : Fin cfg4.N) (i : S512x8192.Idx) :
    i ∈ ((cfg4.win 2).blk t).view.set ↔ ∀ a : Fin 2, win4_2.index t a * S512x2048.size a ≤ (i a).val ∧ (i a).val < win4_2.index t a * S512x2048.size a + S512x2048.size a := by
  show i ∈ ((View.whole main_v0_4).slice (win4_2.rect t)).set ↔ _
  rw [View.set_slice_whole, Rect.mem_set_unit]
  exact Iff.rfl

/-- The tiles cover the output: entry `(r, c)` is in tile `(r / 512, c / 2048)`. -/
theorem cover (i : S512x8192.Idx) : ∃ t : Fin cfg4.N, (cfg4.win 2).flush t = true ∧ i ∈ ((cfg4.win 2).blk t).view.set := by
  have hi0 : (i 0).val < 512 := (i 0).isLt
  have hi1 : (i 1).val < 8192 := (i 1).isLt
  obtain ⟨t, ht⟩ := idx_onto ⟨(i 0).val / 512, by omega⟩ ⟨(i 1).val / 2048, by omega⟩
  have q0 : win4_2.index t (0 : Fin 2) = (i 0).val / 512 := congrFun ht 0
  have q1 : win4_2.index t (1 : Fin 2) = (i 1).val / 2048 := congrFun ht 1
  refine ⟨t, flush4_2 t, ?_⟩
  rw [mem_blk]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 2048 ≤ (i 1).val ∧ (i 1).val < win4_2.index t (1 : Fin 2) * 2048 + 2048; omega

/-- After the region the output array holds the whole product of the operands it was entered with. -/
theorem final (c : Dev nD) : (dat4 V c).arrAt 2 cfg4.N = Cert.Gemm.prod (A V c) (B V c) :=
  (dat4 V c).arrAt_eq_of_cover 2 (Cert.Gemm.prod (A V c) (B V c)) (fun t _ => flushed_eq V c t) (cover)

end Cert.KernelIdeal.Tiles4

end
-- ==== Proof.Tiles5.lean ====
/-
  Product 5: a 1536 × 2048 matrix times a 2048 × 8192 matrix, computed tile by tile.

  The region's grid has 3 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles5

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 1536 rows of 2048 entries. -/
abbrev A (c : Dev nD) : S1536x2048.Idx → EReal := V c (Pipeline.arrRef spec5 0)
/-- The right operand as the region finds it: 2048 rows of 8192 entries. -/
abbrev B (c : Dev nD) : S2048x8192.Idx → EReal := V c (Pipeline.arrRef spec5 1)

theorem origin : (![0, 0] : Fin 2 → Nat) = fun _ => 0 := funext fun a => by fin_cases a <;> rfl

/-- The three block-index maps, decided over the grid's 12 points: the row block of the left operand is the output
    tile's row block and spans every column; the column block of the right operand is the output tile's column block
    and spans every row. -/
theorem idx_facts : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = win5_2.index t (1 : Fin 2) :=
  (by decide +kernel : ∀ t : Fin grid5.N, _)

/-- Every one of the 3 × 4 output tiles is some point's. -/
theorem idx_onto : ∀ (q0 : Fin 3) (q1 : Fin 4), ∃ t : Fin cfg5.N, win5_2.index t = ![q0.val, q1.val] :=
  (by decide +kernel : ∀ (q0 : Fin 3) (q1 : Fin 4), ∃ t : Fin grid5.N, win5_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg5.N) :
    (dat5 V c).flushed 2 t = ((cfg5.win 2).blk t).view.read (Elt Ideal) (Cert.Gemm.prod (A V c) (B V c)) := by
  show (cfg5.win 2).cut (grid5.coords t) ((dat5 V c).after 2 t) = _
  rw [after5_2]
  unfold out5_2
  rw [View.canon_unit_zero origin]
  simp only [View.ld_unit_zero (S := S512x2048) origin, View.ld_unit_zero (S := S2048x2048) origin]
  obtain ⟨e00, e01, e10, e11⟩ := idx_facts t
  funext y
  show k5_pay1 (iblk5 V c 0 t) (iblk5 V c 1 t) y = Cert.Gemm.prod (A V c) (B V c) (((cfg5.win 2).blk t).view.emb y)
  refine Cert.Gemm.tile_apply (A V c) (B V c) (iblk5 V c 0 t) (iblk5 V c 1 t)
    dot_S512x2048_S2048x2048_S512x2048_1_0_0_1_n_n rfl shapeCasts_S512x2048_S512x2048 shapeCasts_S2048x2048_S2048x2048
    y (((cfg5.win 2).blk t).view.emb y) (fun k => ?_) (fun k => ?_)
  · show A V c (((cfg5.win 0).blk t).view.emb (ix2 (y 0) k)) = A V c (ix2 ((((cfg5.win 2).blk t).view.emb y) 0) k)
    refine congrArg (A V c) (funext fun a => Fin.ext ?_)
    match a with
    | ⟨0, _⟩ => show win5_0.index t (0 : Fin 2) * 512 + 1 * (y 0).val = win5_2.index t (0 : Fin 2) * 512 + 1 * (y 0).val; omega
    | ⟨1, _⟩ => show win5_0.index t (1 : Fin 2) * 2048 + 1 * k.val = k.val; omega
  · show B V c (((cfg5.win 1).blk t).view.emb (ix2 k (y 1))) = B V c (ix2 k ((((cfg5.win 2).blk t).view.emb y) 1))
    refine congrArg (B V c) (funext fun a => Fin.ext ?_)
    match a with
    | ⟨0, _⟩ => show win5_1.index t (0 : Fin 2) * 2048 + 1 * k.val = k.val; omega
    | ⟨1, _⟩ => show win5_1.index t (1 : Fin 2) * 2048 + 1 * (y 1).val = win5_2.index t (1 : Fin 2) * 2048 + 1 * (y 1).val; omega

/-- An entry of the output is in point `t`'s tile iff each coordinate is in the tile's range on its axis. -/
theorem mem_blk (t : Fin cfg5.N) (i : S1536x8192.Idx) :
    i ∈ ((cfg5.win 2).blk t).view.set ↔ ∀ a : Fin 2, win5_2.index t a * S512x2048.size a ≤ (i a).val ∧ (i a).val < win5_2.index t a * S512x2048.size a + S512x2048.size a := by
  show i ∈ ((View.whole main_v0_5).slice (win5_2.rect t)).set ↔ _
  rw [View.set_slice_whole, Rect.mem_set_unit]
  exact Iff.rfl

/-- The tiles cover the output: entry `(r, c)` is in tile `(r / 512, c / 2048)`. -/
theorem cover (i : S1536x8192.Idx) : ∃ t : Fin cfg5.N, (cfg5.win 2).flush t = true ∧ i ∈ ((cfg5.win 2).blk t).view.set := by
  have hi0 : (i 0).val < 1536 := (i 0).isLt
  have hi1 : (i 1).val < 8192 := (i 1).isLt
  obtain ⟨t, ht⟩ := idx_onto ⟨(i 0).val / 512, by omega⟩ ⟨(i 1).val / 2048, by omega⟩
  have q0 : win5_2.index t (0 : Fin 2) = (i 0).val / 512 := congrFun ht 0
  have q1 : win5_2.index t (1 : Fin 2) = (i 1).val / 2048 := congrFun ht 1
  refine ⟨t, flush5_2 t, ?_⟩
  rw [mem_blk]
  intro a
  match a with
  | ⟨0, _⟩ => show win5_2.index t (0 : Fin 2) * 512 ≤ (i 0).val ∧ (i 0).val < win5_2.index t (0 : Fin 2) * 512 + 512; omega
  | ⟨1, _⟩ => show win5_2.index t (1 : Fin 2) * 2048 ≤ (i 1).val ∧ (i 1).val < win5_2.index t (1 : Fin 2) * 2048 + 2048; omega

/-- After the region the output array holds the whole product of the operands it was entered with. -/
theorem final (c : Dev nD) : (dat5 V c).arrAt 2 cfg5.N = Cert.Gemm.prod (A V c) (B V c) :=
  (dat5 V c).arrAt_eq_of_cover 2 (Cert.Gemm.prod (A V c) (B V c)) (fun t _ => flushed_eq V c t) (cover)

end Cert.KernelIdeal.Tiles5

end
-- ==== Proof.Tiles6.lean ====
/-
  Product 6: a 2560 × 2048 matrix times a 2048 × 8192 matrix, computed tile by tile.

  The region's grid has 5 × 4 output tiles of 512 × 2048 entries.  At the point of tile `(i, j)` the body reads rows
  `512·i … 512·i + 511` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 512, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles6

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 2560 rows of 2048 entries. -/
abbrev A (c : Dev nD) : S2560x2048.Idx → EReal := V c (Pipeline.arrRef spec6 0)
/-- The right operand as the region finds it: 2048 rows of 8192 entries. -/
abbrev B (c : Dev nD) : S2048x8192.Idx → EReal := V c (Pipeline.arrRef spec6 1)

theorem origin : (![0, 0] : Fin 2 → Nat) = fun _ => 0 := funext fun a => by fin_cases a <;> rfl

/-- The three block-index maps, decided over the grid's 20 points: the row block of the left operand is the output
    tile's row block and spans every column; the column block of the right operand is the output tile's column block
    and spans every row. -/
theorem idx_facts : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = win6_2.index t (1 : Fin 2) :=
  (by decide +kernel : ∀ t : Fin grid6.N, _)

/-- Every one of the 5 × 4 output tiles is some point's. -/
theorem idx_onto : ∀ (q0 : Fin 5) (q1 : Fin 4), ∃ t : Fin cfg6.N, win6_2.index t = ![q0.val, q1.val] :=
  (by decide +kernel : ∀ (q0 : Fin 5) (q1 : Fin 4), ∃ t : Fin grid6.N, win6_2.index t = ![q0.val, q1.val])

/-- What point `t` writes back is its tile of the product of the two operands: entry `(r, q)` of the tile is the sum
    over `k` of row `r` of the row block against column `q` of the column block, and those are row
    `512·i + r` of `A` and column `2048·j + q` of `B` for the point's tile `(i, j)`. -/
theorem flushed_eq (c : Dev nD) (t : Fin cfg6.N) :
    (dat6 V c).flushed 2 t = ((cfg6.win 2).blk t).view.read (Elt Ideal) (Cert.Gemm.prod (A V c) (B V c)) := by
  show (cfg6.win 2).cut (grid6.coords t) ((dat6 V c).after 2 t) = _
  rw [after6_2]
  unfold out6_2
  rw [View.canon_unit_zero origin]
  simp only [View.ld_unit_zero (S := S512x2048) origin, View.ld_unit_zero (S := S2048x2048) origin]
  obtain ⟨e00, e01, e10, e11⟩ := idx_facts t
  funext y
  show k6_pay1 (iblk6 V c 0 t) (iblk6 V c 1 t) y = Cert.Gemm.prod (A V c) (B V c) (((cfg6.win 2).blk t).view.emb y)
  refine Cert.Gemm.tile_apply (A V c) (B V c) (iblk6 V c 0 t) (iblk6 V c 1 t)
    dot_S512x2048_S2048x2048_S512x2048_1_0_0_1_n_n rfl shapeCasts_S512x2048_S512x2048 shapeCasts_S2048x2048_S2048x2048
    y (((cfg6.win 2).blk t).view.emb y) (fun k => ?_) (fun k => ?_)
  · show A V c (((cfg6.win 0).blk t).view.emb (ix2 (y 0) k)) = A V c (ix2 ((((cfg6.win 2).blk t).view.emb y) 0) k)
    refine congrArg (A V c) (funext fun a => Fin.ext ?_)
    match a with
    | ⟨0, _⟩ => show win6_0.index t (0 : Fin 2) * 512 + 1 * (y 0).val = win6_2.index t (0 : Fin 2) * 512 + 1 * (y 0).val; omega
    | ⟨1, _⟩ => show win6_0.index t (1 : Fin 2) * 2048 + 1 * k.val = k.val; omega
  · show B V c (((cfg6.win 1).blk t).view.emb (ix2 k (y 1))) = B V c (ix2 k ((((cfg6.win 2).blk t).view.emb y) 1))
    refine congrArg (B V c) (funext fun a => Fin.ext ?_)
    match a with
    | ⟨0, _⟩ => show win6_1.index t (0 : Fin 2) * 2048 + 1 * k.val = k.val; omega
    | ⟨1, _⟩ => show win6_1.index t (1 : Fin 2) * 2048 + 1 * (y 1).val = win6_2.index t (1 : Fin 2) * 2048 + 1 * (y 1).val; omega

/-- An entry of the output is in point `t`'s tile iff each coordinate is in the tile's range on its axis. -/
theorem mem_blk (t : Fin cfg6.N) (i : S2560x8192.Idx) :
    i ∈ ((cfg6.win 2).blk t).view.set ↔ ∀ a : Fin 2, win6_2.index t a * S512x2048.size a ≤ (i a).val ∧ (i a).val < win6_2.index t a * S512x2048.size a + S512x2048.size a := by
  show i ∈ ((View.whole main_v0_6).slice (win6_2.rect t)).set ↔ _
  rw [View.set_slice_whole, Rect.mem_set_unit]
  exact Iff.rfl

/-- The tiles cover the output: entry `(r, c)` is in tile `(r / 512, c / 2048)`. -/
theorem cover (i : S2560x8192.Idx) : ∃ t : Fin cfg6.N, (cfg6.win 2).flush t = true ∧ i ∈ ((cfg6.win 2).blk t).view.set := by
  have hi0 : (i 0).val < 2560 := (i 0).isLt
  have hi1 : (i 1).val < 8192 := (i 1).isLt
  obtain ⟨t, ht⟩ := idx_onto ⟨(i 0).val / 512, by omega⟩ ⟨(i 1).val / 2048, by omega⟩
  have q0 : win6_2.index t (0 : Fin 2) = (i 0).val / 512 := congrFun ht 0
  have q1 : win6_2.index t (1 : Fin 2) = (i 1).val / 2048 := congrFun ht 1
  refine ⟨t, flush6_2 t, ?_⟩
  rw [mem_blk]
  intro a
  match a with
  | ⟨0, _⟩ => show win6_2.index t (0 : Fin 2) * 512 ≤ (i 0).val ∧ (i 0).val < win6_2.index t (0 : Fin 2) * 512 + 512; omega
  | ⟨1, _⟩ => show win6_2.index t (1 : Fin 2) * 2048 ≤ (i 1).val ∧ (i 1).val < win6_2.index t (1 : Fin 2) * 2048 + 2048; omega

/-- After the region the output array holds the whole product of the operands it was entered with. -/
theorem final (c : Dev nD) : (dat6 V c).arrAt 2 cfg6.N = Cert.Gemm.prod (A V c) (B V c) :=
  (dat6 V c).arrAt_eq_of_cover 2 (Cert.Gemm.prod (A V c) (B V c)) (fun t _ => flushed_eq V c t) (cover)

end Cert.KernelIdeal.Tiles6

end
-- ==== Proof.Tiles7.lean ====
/-
  Product 7: a 768 × 2048 matrix times a 2048 × 8192 matrix, computed tile by tile.

  The region's grid has 3 × 4 output tiles of 256 × 2048 entries.  At the point of tile `(i, j)` the body reads rows
  `256·i … 256·i + 255` of the left operand (all 2048 columns) and columns `2048·j … 2048·j + 2047` of the right operand
  (all 2048 rows), multiplies the two blocks into a zero tile, and the tile is written back at `(i, j)`.  A tile of
  a product is the product of the row block by the column block, so every point writes back its tile of ONE whole
  array — the product of the operands as the region finds them — and the tiles cover that array: entry `(r, c)` lies
  in tile `(r / 256, c / 2048)`.  Hence the output array ends holding the product.
-/
import proofs.«141534_j38792144618090_2_alg».proof.Proof.Gen.KernelIdeal.Frame
import proofs.«141534_j38792144618090_2_alg».proof.Proof.LibGemm
import Idealize.ShloMosaic.Lib.Pipeline.Value

set_option maxRecDepth 16384

noncomputable section

namespace Cert.KernelIdeal.Tiles7

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The left operand as the region finds it: 768 rows of 2048 entries. -/
abbrev A (c : Dev nD) : S768x2048.Idx → EReal := V c (Pipeline.arrRef spec7 0)
/-- The right operand as the region finds it: 2048 rows of 8192 entries. -/
abbrev B (c : Dev nD) : S2048x8192.Idx → EReal := V c (Pipeline.arrRef spec7 1)

theorem origin : (![0, 0] : Fin 2 → Nat) = fun _ => 0 := funext fun a => by fin_cases a <;> rfl

/-- The three block-index maps, decided over the grid's 12 points: the row block of the left operand is the output
    tile's row block and spans every column; the column block of the right operand is the output tile's column block
    and spans every row. -/
theorem idx_facts : ∀ t : Fin cfg7.N,
    win7_0.index t (0 : Fin 2) = win7_2.index t (0 : Fin 2) ∧ win7_0.index t (1 : Fin 2) = 0
    ∧ win7_1.index t (0 : Fin 2) = 0 ∧ win7_1.index t (1 : Fin 2) = win7_2.index t (1 : Fin 2) :=
  (by decide +kernel : ∀ t : Fin grid7.N, _)

/-- Every one of the 3 × 4 output tiles is some point's. -/
theorem idx_onto : ∀ (q0 : Fin 3) (q1 : Fin 4), ∃ t : Fin cfg7.N, win7_2.index t = ![q0.val, q1.val] :=
  (by decide +kernel : ∀ (q0 : Fin 3) (q1 : Fin 4), ∃ t : Fin grid7.N, win7_2.index t = ![q0.val, q1.val])

/-- What point `t` writes back is its tile of the product of the two operands: entry `(r, q)` of the tile is the sum
    over `k` of row `r` of the row block against column `q` of the column block, and those are row
    `256·i + r` of `A` and column `2048·j + q` of `B` for the point's tile `(i, j)`. -/
theorem flushed_eq (c : Dev nD) (t : Fin cfg7.N) :
    (dat7 V c).flushed 2 t = ((cfg7.win 2).blk t).view.read (Elt Ideal) (Cert.Gemm.prod (A V c) (B V c)) := by
  show (cfg7.win 2).cut (grid7.coords t) ((dat7 V c).after 2 t) = _
  rw [after7_2]
  unfold out7_2
  rw [View.canon_unit_zero origin]
  simp only [View.ld_unit_zero (S := S256x2048) origin, View.ld_unit_zero (S := S2048x2048) origin]
  obtain ⟨e00, e01, e10, e11⟩ := idx_facts t
  funext y
  show k7_pay1 (iblk7 V c 0 t) (iblk7 V c 1 t) y = Cert.Gemm.prod (A V c) (B V c) (((cfg7.win 2).blk t).view.emb y)
  refine Cert.Gemm.tile_apply (A V c) (B V c) (iblk7 V c 0 t) (iblk7 V c 1 t)
    dot_S256x2048_S2048x2048_S256x2048_1_0_0_1_n_n rfl shapeCasts_S256x2048_S256x2048 shapeCasts_S2048x2048_S2048x2048
    y (((cfg7.win 2).blk t).view.emb y) (fun k => ?_) (fun k => ?_)
  · show A V c (((cfg7.win 0).blk t).view.emb (ix2 (y 0) k)) = A V c (ix2 ((((cfg7.win 2).blk t).view.emb y) 0) k)
    refine congrArg (A V c) (funext fun a => Fin.ext ?_)
    match a with
    | ⟨0, _⟩ => show win7_0.index t (0 : Fin 2) * 256 + 1 * (y 0).val = win7_2.index t (0 : Fin 2) * 256 + 1 * (y 0).val; omega
    | ⟨1, _⟩ => show win7_0.index t (1 : Fin 2) * 2048 + 1 * k.val = k.val; omega
  · show B V c (((cfg7.win 1).blk t).view.emb (ix2 k (y 1))) = B V c (ix2 k ((((cfg7.win 2).blk t).view.emb y) 1))
    refine congrArg (B V c) (funext fun a => Fin.ext ?_)
    match a with
    | ⟨0, _⟩ => show win7_1.index t (0 : Fin 2) * 2048 + 1 * k.val = k.val; omega
    | ⟨1, _⟩ => show win7_1.index t (1 : Fin 2) * 2048 + 1 * (y 1).val = win7_2.index t (1 : Fin 2) * 2048 + 1 * (y 1).val; omega

/-- An entry of the output is in point `t`'s tile iff each coordinate is in the tile's range on its axis. -/
theorem mem_blk (t : Fin cfg7.N) (i : S768x8192.Idx) :
    i ∈ ((cfg7.win 2).blk t).view.set ↔ ∀ a : Fin 2, win7_2.index t a * S256x2048.size a ≤ (i a).val ∧ (i a).val < win7_2.index t a * S256x2048.size a + S256x2048.size a := by
  show i ∈ ((View.whole main_v0_7).slice (win7_2.rect t)).set ↔ _
  rw [View.set_slice_whole, Rect.mem_set_unit]
  exact Iff.rfl

/-- The tiles cover the output: entry `(r, c)` is in tile `(r / 256, c / 2048)`. -/
theorem cover (i : S768x8192.Idx) : ∃ t : Fin cfg7.N, (cfg7.win 2).flush t = true ∧ i ∈ ((cfg7.win 2).blk t).view.set := by
  have hi0 : (i 0).val < 768 := (i 0).isLt
  have hi1 : (i 1).val < 8192 := (i 1).isLt
  obtain ⟨t, ht⟩ := idx_onto ⟨(i 0).val / 256, by omega⟩ ⟨(i 1).val / 2048, by omega⟩
  have q0 : win7_2.index t (0 : Fin 2) = (i 0).val / 256 := congrFun ht 0
  have q1 : win7_2.index t (1 : Fin 2) = (i 1).val / 2048 := congrFun ht 1
  refine ⟨t, flush7_2 t, ?_⟩
  rw [mem_blk]
  intro a
  match a with
  | ⟨0, _⟩ => show win7_2.index t (0 : Fin 2) * 256 ≤ (i 0).val ∧ (i 0).val < win7_2.index t (0 : Fin 2) * 256 + 256; omega
  | ⟨1, _⟩ => show win7_2.index t (1 : Fin 2) * 2048 ≤ (i 1).val ∧ (i 1).val < win7_2.index t (1 : Fin 2) * 2048 + 2048; omega

/-- After the region the output array holds the whole product of the operands it was entered with. -/
theorem final (c : Dev nD) : (dat7 V c).arrAt 2 cfg7.N = Cert.Gemm.prod (A V c) (B V c) :=
  (dat7 V c).arrAt_eq_of_cover 2 (Cert.Gemm.prod (A V c) (B V c)) (fun t _ => flushed_eq V c t) (cover)

end Cert.KernelIdeal.Tiles7

end
-- ==== Proof.Products.lean ====
/-
  The idealized kernel's eight results, as functions of its arguments.

  Result `j` is the buffer region `j` writes.  Nothing after region `j` touches it, so the program ends with what the
  region left there: the product of the two arrays the region was entered with.  Those are arguments `j` and `8 + j`
  converted to bf16, which nothing before region `j` has touched — and on extended reals a change of float format is
  the identity.  So result `j` is the product of argument `j` by argument `8 + j`, whatever the arguments hold.
-/
import proofs.«141534_j38792144618090_2_alg».proof.Proof.KernelRun
import proofs.«141534_j38792144618090_2_alg».proof.Proof.Boundaries
import proofs.«141534_j38792144618090_2_alg».proof.Proof.Tiles0
import proofs.«141534_j38792144618090_2_alg».proof.Proof.Tiles1
import proofs.«141534_j38792144618090_2_alg».proof.Proof.Tiles2
import proofs.«141534_j38792144618090_2_alg».proof.Proof.Tiles3
import proofs.«141534_j38792144618090_2_alg».proof.Proof.Tiles4
import proofs.«141534_j38792144618090_2_alg».proof.Proof.Tiles5
import proofs.«141534_j38792144618090_2_alg».proof.Proof.Tiles6
import proofs.«141534_j38792144618090_2_alg».proof.Proof.Tiles7

set_option maxRecDepth 16384

noncomputable section

namespace Cert.KernelIdeal.Products

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Result 0 is the product of argument 0 (4096 × 2048) by argument 8 (2048 × 8192). -/
theorem out0 (c : Dev nD) :
    W16 m ρ c (Proc.devRef .tc main_v0_0)
      = Cert.Gemm.prod (m ((c : Thread nD τ).loc main_arg0)) (m ((c : Thread nD τ).loc main_arg8)) := by
  have hA : Tiles0.A (V1 m ρ) c = (m ((c : Thread nD τ).loc main_arg0) : S4096x2048.Idx → EReal) := Bnd.entryA0 m ρ c
  have hB : Tiles0.B (V1 m ρ) c = (m ((c : Thread nD τ).loc main_arg8) : S2048x8192.Idx → EReal) := Bnd.entryB0 m ρ c
  refine (Bnd.from1 m ρ c main_v0_0 (by decide)).trans <| (W2_arr m ρ c 2).trans <| (Tiles0.final (V1 m ρ) c).trans ?_
  rw [hA, hB]

/-- Result 1 is the product of argument 1 (1024 × 2048) by argument 9 (2048 × 8192). -/
theorem out1 (c : Dev nD) :
    W16 m ρ c (Proc.devRef .tc main_v0_1)
      = Cert.Gemm.prod (m ((c : Thread nD τ).loc main_arg1)) (m ((c : Thread nD τ).loc main_arg9)) := by
  have hA : Tiles1.A (V3 m ρ) c = (m ((c : Thread nD τ).loc main_arg1) : S1024x2048.Idx → EReal) := Bnd.entryA1 m ρ c
  have hB : Tiles1.B (V3 m ρ) c = (m ((c : Thread nD τ).loc main_arg9) : S2048x8192.Idx → EReal) := Bnd.entryB1 m ρ c
  refine (Bnd.from2 m ρ c main_v0_1 (by decide)).trans <| (W4_arr m ρ c 2).trans <| (Tiles1.final (V3 m ρ) c).trans ?_
  rw [hA, hB]

/-- Result 2 is the product of argument 2 (2048 × 2048) by argument 10 (2048 × 8192). -/
theorem out2 (c : Dev nD) :
    W16 m ρ c (Proc.devRef .tc main_v0_2)
      = Cert.Gemm.prod (m ((c : Thread nD τ).loc main_arg2)) (m ((c : Thread nD τ).loc main_arg10)) := by
  have hA : Tiles2.A (V5 m ρ) c = (m ((c : Thread nD τ).loc main_arg2) : S2048x2048.Idx → EReal) := Bnd.entryA2 m ρ c
  have hB : Tiles2.B (V5 m ρ) c = (m ((c : Thread nD τ).loc main_arg10) : S2048x8192.Idx → EReal) := Bnd.entryB2 m ρ c
  refine (Bnd.from3 m ρ c main_v0_2 (by decide)).trans <| (W6_arr m ρ c 2).trans <| (Tiles2.final (V5 m ρ) c).trans ?_
  rw [hA, hB]

/-- Result 3 is the product of argument 3 (3072 × 2048) by argument 11 (2048 × 8192). -/
theorem out3 (c : Dev nD) :
    W16 m ρ c (Proc.devRef .tc main_v0_3)
      = Cert.Gemm.prod (m ((c : Thread nD τ).loc main_arg3)) (m ((c : Thread nD τ).loc main_arg11)) := by
  have hA : Tiles3.A (V7 m ρ) c = (m ((c : Thread nD τ).loc main_arg3) : S3072x2048.Idx → EReal) := Bnd.entryA3 m ρ c
  have hB : Tiles3.B (V7 m ρ) c = (m ((c : Thread nD τ).loc main_arg11) : S2048x8192.Idx → EReal) := Bnd.entryB3 m ρ c
  refine (Bnd.from4 m ρ c main_v0_3 (by decide)).trans <| (W8_arr m ρ c 2).trans <| (Tiles3.final (V7 m ρ) c).trans ?_
  rw [hA, hB]

/-- Result 4 is the product of argument 4 (512 × 2048) by argument 12 (2048 × 8192). -/
theorem out4 (c : Dev nD) :
    W16 m ρ c (Proc.devRef .tc main_v0_4)
      = Cert.Gemm.prod (m ((c : Thread nD τ).loc main_arg4)) (m ((c : Thread nD τ).loc main_arg12)) := by
  have hA : Tiles4.A (V9 m ρ) c = (m ((c : Thread nD τ).loc main_arg4) : S512x2048.Idx → EReal) := Bnd.entryA4 m ρ c
  have hB : Tiles4.B (V9 m ρ) c = (m ((c : Thread nD τ).loc main_arg12) : S2048x8192.Idx → EReal) := Bnd.entryB4 m ρ c
  refine (Bnd.from5 m ρ c main_v0_4 (by decide)).trans <| (W10_arr m ρ c 2).trans <| (Tiles4.final (V9 m ρ) c).trans ?_
  rw [hA, hB]

/-- Result 5 is the product of argument 5 (1536 × 2048) by argument 13 (2048 × 8192). -/
theorem out5 (c : Dev nD) :
    W16 m ρ c (Proc.devRef .tc main_v0_5)
      = Cert.Gemm.prod (m ((c : Thread nD τ).loc main_arg5)) (m ((c : Thread nD τ).loc main_arg13)) := by
  have hA : Tiles5.A (V11 m ρ) c = (m ((c : Thread nD τ).loc main_arg5) : S1536x2048.Idx → EReal) := Bnd.entryA5 m ρ c
  have hB : Tiles5.B (V11 m ρ) c = (m ((c : Thread nD τ).loc main_arg13) : S2048x8192.Idx → EReal) := Bnd.entryB5 m ρ c
  refine (Bnd.from6 m ρ c main_v0_5 (by decide)).trans <| (W12_arr m ρ c 2).trans <| (Tiles5.final (V11 m ρ) c).trans ?_
  rw [hA, hB]

/-- Result 6 is the product of argument 6 (2560 × 2048) by argument 14 (2048 × 8192). -/
theorem out6 (c : Dev nD) :
    W16 m ρ c (Proc.devRef .tc main_v0_6)
      = Cert.Gemm.prod (m ((c : Thread nD τ).loc main_arg6)) (m ((c : Thread nD τ).loc main_arg14)) := by
  have hA : Tiles6.A (V13 m ρ) c = (m ((c : Thread nD τ).loc main_arg6) : S2560x2048.Idx → EReal) := Bnd.entryA6 m ρ c
  have hB : Tiles6.B (V13 m ρ) c = (m ((c : Thread nD τ).loc main_arg14) : S2048x8192.Idx → EReal) := Bnd.entryB6 m ρ c
  refine (Bnd.from7 m ρ c main_v0_6 (by decide)).trans <| (W14_arr m ρ c 2).trans <| (Tiles6.final (V13 m ρ) c).trans ?_
  rw [hA, hB]

/-- Result 7 is the product of argument 7 (768 × 2048) by argument 15 (2048 × 8192). -/
theorem out7 (c : Dev nD) :
    W16 m ρ c (Proc.devRef .tc main_v0_7)
      = Cert.Gemm.prod (m ((c : Thread nD τ).loc main_arg7)) (m ((c : Thread nD τ).loc main_arg15)) := by
  have hA : Tiles7.A (V15 m ρ) c = (m ((c : Thread nD τ).loc main_arg7) : S768x2048.Idx → EReal) := Bnd.entryA7 m ρ c
  have hB : Tiles7.B (V15 m ρ) c = (m ((c : Thread nD τ).loc main_arg15) : S2048x8192.Idx → EReal) := Bnd.entryB7 m ρ c
  refine (W16_arr m ρ c 2).trans <| (Tiles7.final (V15 m ρ) c).trans ?_
  rw [hA, hB]

/-- Every weakly fair execution of the idealized kernel terminates, nothing faulting, with result `j` the product of
    argument `j` by argument `8 + j`, and the arguments as launched. -/
theorem run : θ_run defs (onTc (τ := τ) (main (F := Ideal))) ⟨m, fun _ => 0, ρ⟩ (fun r => ∀ c : Dev nD,
      r.2.mem ((c.tc : Thread nD τ).loc main_v0_0) = Cert.Gemm.prod (m ((c.tc : Thread nD τ).loc main_arg0)) (m ((c.tc : Thread nD τ).loc main_arg8))
      ∧ r.2.mem ((c.tc : Thread nD τ).loc main_v0_1) = Cert.Gemm.prod (m ((c.tc : Thread nD τ).loc main_arg1)) (m ((c.tc : Thread nD τ).loc main_arg9))
      ∧ r.2.mem ((c.tc : Thread nD τ).loc main_v0_2) = Cert.Gemm.prod (m ((c.tc : Thread nD τ).loc main_arg2)) (m ((c.tc : Thread nD τ).loc main_arg10))
      ∧ r.2.mem ((c.tc : Thread nD τ).loc main_v0_3) = Cert.Gemm.prod (m ((c.tc : Thread nD τ).loc main_arg3)) (m ((c.tc : Thread nD τ).loc main_arg11))
      ∧ r.2.mem ((c.tc : Thread nD τ).loc main_v0_4) = Cert.Gemm.prod (m ((c.tc : Thread nD τ).loc main_arg4)) (m ((c.tc : Thread nD τ).loc main_arg12))
      ∧ r.2.mem ((c.tc : Thread nD τ).loc main_v0_5) = Cert.Gemm.prod (m ((c.tc : Thread nD τ).loc main_arg5)) (m ((c.tc : Thread nD τ).loc main_arg13))
      ∧ r.2.mem ((c.tc : Thread nD τ).loc main_v0_6) = Cert.Gemm.prod (m ((c.tc : Thread nD τ).loc main_arg6)) (m ((c.tc : Thread nD τ).loc main_arg14))
      ∧ r.2.mem ((c.tc : Thread nD τ).loc main_v0_7) = Cert.Gemm.prod (m ((c.tc : Thread nD τ).loc main_arg7)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v0_0 (by decide))).trans (out0 m ρ c),
     (h c _ (mem_uc main_v0_1 (by decide))).trans (out1 m ρ c),
     (h c _ (mem_uc main_v0_2 (by decide))).trans (out2 m ρ c),
     (h c _ (mem_uc main_v0_3 (by decide))).trans (out3 m ρ c),
     (h c _ (mem_uc main_v0_4 (by decide))).trans (out4 m ρ c),
     (h c _ (mem_uc main_v0_5 (by decide))).trans (out5 m ρ c),
     (h c _ (mem_uc main_v0_6 (by decide))).trans (out6 m ρ c),
     (h c _ (mem_uc main_v0_7 (by decide))).trans (out7 m ρ c),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c),
     (h c _ (mem_uc main_arg13 (by decide))).trans (W16_main_arg13 m ρ c),
     (h c _ (mem_uc main_arg14 (by decide))).trans (W16_main_arg14 m ρ c),
     (h c _ (mem_uc main_arg15 (by decide))).trans (W16_main_arg15 m ρ c)⟩)
    (Whole.run m ρ)

end Cert.KernelIdeal.Products

end
-- ==== Proof.lean ====
/-
  Eight matrix products, tile by tile on the kernel's side and whole on the reference's, are the same eight arrays.

  At the ideal instance a float is an extended real and a change of float format is the identity.  The kernel converts
  each pair of operands to bf16 and computes product `j` (`M_j × 2048` by `2048 × 8192`, with `M_j` =
  4096, 1024, 2048, 3072, 512, 1536, 2560, 768) over a grid of output tiles, each tile the product of a block of
  rows by a block of columns accumulated into zero; the reference computes each product whole.  Both are, entry by
  entry, `∑ k, a (r, k) * b (k, c)` over the same 2048 terms in one commutative monoid: the tiles only decide WHERE an
  entry is computed, never which terms it sums.  So no property of the inputs is used — the sums are equal for
  infinite entries too — and the finiteness precondition is never opened.

  The frames of the two kernel programs are the generated ones; the reference's frame is its run with the results
  dropped; the idealization rewrote nothing, so `preserves` is `True`.
-/
import proofs.«141534_j38792144618090_2_alg».proof.Defs
import proofs.«141534_j38792144618090_2_alg».proof.Proof.Gen.Kernel
import proofs.«141534_j38792144618090_2_alg».proof.Proof.Gen.Kernel.Frame
import proofs.«141534_j38792144618090_2_alg».proof.Proof.Gen.KernelIdeal
import proofs.«141534_j38792144618090_2_alg».proof.Proof.Gen.KernelIdeal.Frame
import proofs.«141534_j38792144618090_2_alg».proof.Proof.Gen.ReferenceIdeal
import proofs.«141534_j38792144618090_2_alg».proof.Proof.Gen.ReferenceIdeal.Run
import proofs.«141534_j38792144618090_2_alg».proof.Proof.Gen.Pre_finite_inputs
import proofs.«141534_j38792144618090_2_alg».proof.Proof.LibGemm
import proofs.«141534_j38792144618090_2_alg».proof.Proof.Products
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its eight results dropped. -/
theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

/-- The idealization rewrote no operation. -/
theorem preserves : Cert.preserves_Kernel_KernelIdeal := trivial

/-- From memories agreeing on the sixteen arguments both programs end with result `j` the product of argument `j` by
    argument `8 + j`: the kernel's tiles assemble it, and the host's product with the standard dimension numbers is it. -/
theorem algebraic : Cert.algebraic_KernelIdeal_ReferenceIdeal := by
  intro m ρ m' ρ' _ hagree
  refine ⟨_, _, _, _, _, _, _, _, Cert.KernelIdeal.Products.run m ρ, ?_⟩
  refine (θ_run Cert.ReferenceIdeal.defs _ _).mono (fun _ h c => ?_) (Cert.ReferenceIdeal.Value.run (F := Ideal) m' ρ')
  obtain ⟨h0, h1, h2, h3, h4, h5, h6, h7, hargs⟩ := h c
  obtain ⟨g0, g1, g2, g3, g4, g5, g6, g7, g8, g9, g10, g11, g12, g13, g14, g15⟩ := hagree c
  refine ⟨h0.trans ?_, h1.trans ?_, h2.trans ?_, h3.trans ?_, h4.trans ?_, h5.trans ?_, h6.trans ?_, h7.trans ?_, hargs⟩
  · rw [g0, g8]; exact Cert.Gemm.host_eq_prod _ rfl none _ _
  · rw [g1, g9]; exact Cert.Gemm.host_eq_prod _ rfl none _ _
  · rw [g2, g10]; exact Cert.Gemm.host_eq_prod _ rfl none _ _
  · rw [g3, g11]; exact Cert.Gemm.host_eq_prod _ rfl none _ _
  · rw [g4, g12]; exact Cert.Gemm.host_eq_prod _ rfl none _ _
  · rw [g5, g13]; exact Cert.Gemm.host_eq_prod _ rfl none _ _
  · rw [g6, g14]; exact Cert.Gemm.host_eq_prod _ rfl none _ _
  · rw [g7, g15]; exact Cert.Gemm.host_eq_prod _ rfl none _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
